-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x64 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S2000x128 : Shape := ⟨2, ![2000, 128]⟩
abbrev S1x128 : Shape := ⟨2, ![1, 128]⟩
abbrev S640000x128 : Shape := ⟨2, ![640000, 128]⟩
abbrev S2000x1 : Shape := ⟨2, ![2000, 1]⟩
abbrev S50000x64 : Shape := ⟨2, ![50000, 64]⟩
abbrev S2000x64 : Shape := ⟨2, ![2000, 64]⟩
abbrev S1x64 : Shape := ⟨2, ![1, 64]⟩

abbrev nBuf : Space → Nat
  | .hbm => 107
  | .vmem => 59
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S_, .f32⟩
  | .hbm, ⟨17, _⟩ => ⟨S640000, .f32⟩
  | .hbm, ⟨18, _⟩ => ⟨S_, .f32⟩
  | .hbm, ⟨19, _⟩ => ⟨S50000, .f32⟩
  | .hbm, ⟨20, _⟩ => ⟨S640000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000, .f32⟩
  | .hbm, ⟨44, _⟩ => ⟨S640000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S_, .f32⟩
  | .hbm, ⟨50, _⟩ => ⟨S128, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S640000, .i32⟩
  | .hbm, ⟨55, _⟩ => ⟨S640000, .i1⟩
  | .hbm, ⟨56, _⟩ => ⟨S_, .i32⟩
  | .hbm, ⟨57, _⟩ => ⟨S640000, .i32⟩
  | .hbm, ⟨58, _⟩ => ⟨S640000, .i32⟩
  | .hbm, ⟨59, _⟩ => ⟨S640000, .i32⟩
  | .hbm, ⟨60, _⟩ => ⟨S640000x1, .i32⟩
  | .hbm, ⟨61, _⟩ => ⟨S640000x128, .f32⟩
  | .hbm, ⟨62, _⟩ => ⟨S640000x1, .f32⟩
  | .hbm, ⟨63, _⟩ => ⟨S640000x128, .f32⟩
  | .hbm, ⟨64, _⟩ => ⟨S640000x128, .f32⟩
  | .hbm, ⟨65, _⟩ => ⟨S_, .f32⟩
  | .hbm, ⟨66, _⟩ => ⟨S50000x128, .f32⟩
  | .hbm, ⟨67, _⟩ => ⟨S640000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S640000x1, .f32⟩
  | .hbm, ⟨81, _⟩ => ⟨S640000x128, .f32⟩
  | .hbm, ⟨82, _⟩ => ⟨S640000x128, .f32⟩
  | .hbm, ⟨83, _⟩ => ⟨S_, .f32⟩
  | .hbm, ⟨84, _⟩ => ⟨S50000x128, .f32⟩
  | .hbm, ⟨85, _⟩ => ⟨S640000x1, .i32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .i32⟩
  | .hbm, ⟨90, _⟩ => ⟨S640000, .i32⟩
  | .hbm, ⟨91, _⟩ => ⟨S640000, .i1⟩
  | .hbm, ⟨92, _⟩ => ⟨S_, .i32⟩
  | .hbm, ⟨93, _⟩ => ⟨S640000, .i32⟩
  | .hbm, ⟨94, _⟩ => ⟨S640000, .i32⟩
  | .hbm, ⟨95, _⟩ => ⟨S640000, .i32⟩
  | .hbm, ⟨96, _⟩ => ⟨S640000x1, .i32⟩
  | .hbm, ⟨97, _⟩ => ⟨S640000x128, .f32⟩
  | .hbm, ⟨98, _⟩ => ⟨S640000x1, .f32⟩
  | .hbm, ⟨99, _⟩ => ⟨S640000x128, .f32⟩
  | .hbm, ⟨100, _⟩ => ⟨S640000x128, .f32⟩
  | .hbm, ⟨101, _⟩ => ⟨S_, .f32⟩
  | .hbm, ⟨102, _⟩ => ⟨S50000x128, .f32⟩
  | .hbm, ⟨103, _⟩ => ⟨S640000x1, .i32⟩
  | .hbm, ⟨104, _⟩ => ⟨S50000x128, .f32⟩
  | .hbm, ⟨105, _⟩ => ⟨S50000x128, .f32⟩
  | .hbm, ⟨106, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x1, .f32⟩
  | .local _ .vmem, ⟨34, _⟩ => ⟨S2000x1, .f32⟩
  | .local _ .vmem, ⟨35, _⟩ => ⟨S128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x1, .f32⟩
  | .local _ .vmem, ⟨49, _⟩ => ⟨S2000x1, .f32⟩
  | .local _ .vmem, ⟨50, _⟩ => ⟨S128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S128x64, .f32⟩
  | .local _ .vmem, ⟨56, _⟩ => ⟨S64, .f32⟩
  | .local _ .vmem, ⟨57, _⟩ => ⟨S2000x64, .f32⟩
  | .local _ .vmem, ⟨58, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg4_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem4_0 : DmaSem sig := 51
abbrev cc6_sem4_1 : DmaSem sig := 52
abbrev cc7_sem0_0 : DmaSem sig := 53
abbrev cc7_sem0_1 : DmaSem sig := 54
abbrev cc7_sem1_0 : DmaSem sig := 55
abbrev cc7_sem2_0 : DmaSem sig := 56
abbrev cc7_sem3_0 : DmaSem sig := 57
abbrev cc7_sem3_1 : DmaSem sig := 58

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S_S128 : S_.BroadcastsInDim S128 (![] : Fin 0 → Fin S128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  shapeCasts_S128_S128 : S128.ShapeCasts S128
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S50000x128.size a
  hwx6_4 : ∀ i : grid6.Coords, EltTy.bits .f32 = 32 ∨ (Rect.block (s := S50000x128) S2000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S50000x64.size a
  hwx7_3 : ∀ i : grid7.Coords, EltTy.bits .f32 = 32 ∨ (Rect.block (s := S50000x64) S2000x64.size (cc7_transform_3 i) (hinb7_3 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v45) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v60) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v61) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v61) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v74) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v28) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg7) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v75) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v75) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg11) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v76) S2000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S1x128 : Shape := ⟨2, ![1, 128]⟩
abbrev S640000x128 : Shape := ⟨2, ![640000, 128]⟩
abbrev S50000x1 : Shape := ⟨2, ![50000, 1]⟩
abbrev S50000x64 : Shape := ⟨2, ![50000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S1x640000, .i32⟩
  | 13 => ⟨S640000, .i32⟩
  | 14 => ⟨S1x640000, .i32⟩
  | 15 => ⟨S640000, .i32⟩
  | 16 => ⟨S_, .f32⟩
  | 17 => ⟨S640000, .f32⟩
  | 18 => ⟨S_, .f32⟩
  | 19 => ⟨S50000, .f32⟩
  | 20 => ⟨S640000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000, .f32⟩
  | 44 => ⟨S640000, .f32⟩
  | 45 => ⟨S_, .f32⟩
  | 46 => ⟨S50000, .f32⟩
  | 47 => ⟨S50000, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S_, .i32⟩
  | 54 => ⟨S640000, .i32⟩
  | 55 => ⟨S640000, .i1⟩
  | 56 => ⟨S_, .i32⟩
  | 57 => ⟨S640000, .i32⟩
  | 58 => ⟨S640000, .i32⟩
  | 59 => ⟨S640000, .i32⟩
  | 60 => ⟨S640000x1, .i32⟩
  | 61 => ⟨S640000x128, .f32⟩
  | 62 => ⟨S640000x1, .f32⟩
  | 63 => ⟨S640000x128, .f32⟩
  | 64 => ⟨S640000x128, .f32⟩
  | 65 => ⟨S_, .f32⟩
  | 66 => ⟨S50000x128, .f32⟩
  | 67 => ⟨S640000x1, .i32⟩
  | 68 => ⟨S50000x128, .f32⟩
  | 69 => ⟨S50000x1, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x128, .f32⟩
  | 90 => ⟨S640000x1, .f32⟩
  | 91 => ⟨S640000x128, .f32⟩
  | 92 => ⟨S640000x128, .f32⟩
  | 93 => ⟨S_, .f32⟩
  | 94 => ⟨S50000x128, .f32⟩
  | 95 => ⟨S640000x1, .i32⟩
  | 96 => ⟨S50000x128, .f32⟩
  | 97 => ⟨S50000x1, .f32⟩
  | 98 => ⟨S50000x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S_, .i32⟩
  | 109 => ⟨S640000, .i32⟩
  | 110 => ⟨S640000, .i1⟩
  | 111 => ⟨S_, .i32⟩
  | 112 => ⟨S640000, .i32⟩
  | 113 => ⟨S640000, .i32⟩
  | 114 => ⟨S640000, .i32⟩
  | 115 => ⟨S640000x1, .i32⟩
  | 116 => ⟨S640000x128, .f32⟩
  | 117 => ⟨S640000x1, .f32⟩
  | 118 => ⟨S640000x128, .f32⟩
  | 119 => ⟨S640000x128, .f32⟩
  | 120 => ⟨S_, .f32⟩
  | 121 => ⟨S50000x128, .f32⟩
  | 122 => ⟨S640000x1, .i32⟩
  | 123 => ⟨S50000x128, .f32⟩
  | 124 => ⟨S50000x1, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x64, .f32⟩
  | 7 => ⟨S1x64, .f32⟩
  | 8 => ⟨S50000x64, .f32⟩
  | 9 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call0_cst : Ref sig .tc := ⟨.hbm, 77, rfl⟩
abbrev main_call0_v0 : Ref sig .tc := ⟨.hbm, 78, rfl⟩
abbrev main_v54 : Ref sig .tc := ⟨.hbm, 79, rfl⟩
abbrev main_v55 : Ref sig .tc := ⟨.hbm, 80, rfl⟩
abbrev main_c_9 : Ref sig .tc := ⟨.hbm, 81, rfl⟩
abbrev main_v56 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_call1_cst : Ref sig .tc := ⟨.hbm, 104, rfl⟩
abbrev main_call1_v0 : Ref sig .tc := ⟨.hbm, 105, rfl⟩
abbrev main_v76 : Ref sig .tc := ⟨.hbm, 106, rfl⟩
abbrev main_v77 : Ref sig .tc := ⟨.hbm, 107, rfl⟩
abbrev main_c_12 : Ref sig .tc := ⟨.hbm, 108, rfl⟩
abbrev main_v78 : Ref sig .tc := ⟨.hbm, 109, rfl⟩
abbrev main_v79 : Ref sig .tc := ⟨.hbm, 110, rfl⟩
abbrev main_c_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_14 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call2_cst : Ref sig .tc := ⟨.hbm, 131, rfl⟩
abbrev main_call2_v0 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x64_S50000x64_1_0_0_1_n_n_wf : DotDims.WF S50000x128 S128x64 S50000x64 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RunK.lean ====
/-
  The idealized kernel's run with its result named.

  From any memory with zero counters every weakly fair execution of the program on the TensorCores terminates without
  a fault; at the end the result buffer holds what the fold through the twelve segments leaves in it at the last
  boundary, and the twelve argument arrays hold what they held at the launch.
-/
import proofs.«100985_j73658689126419_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer at the last boundary's contents, the arguments as launched. -/
theorem run_named : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Fold

end
-- ==== Proof.Carry.lean ====
/-
  What each segment of the program leaves alone.

  The program is twelve segments: a stretch of host operations, two Pallas calls, and three times a stretch of host
  operations followed by two Pallas calls.  The buffer contents at the thirteen boundaries are a fold through the
  segments.  A Pallas call writes its one result array and nothing else; a stretch of host operations writes the result
  buffers of its operations and nothing else.  So a buffer read at some boundary holds what it held at the boundary
  right after the segment that produced it — or, for an argument, what it held at the launch.  The lemmas below say
  this one segment at a time, for any buffer.
-/
import proofs.«100985_j73658689126419_1_alg».proof.Proof.Gen.KernelIdeal.Frame

noncomputable section

namespace Cert.KernelIdeal.Fold

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- At the launch a buffer holds the launch memory's contents. -/
theorem W0_read (b : Ref sig .tc) : W0 m ρ c (no_index (Proc.devRef .tc b)) = m ((c : Thread nD τ).loc b) := rfl

/-- The buffers the host operations between the calls write here. -/
abbrev wr0 : List (Ref sig .tc) :=
  [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_cst_5, main_v26, main_v27, main_v28, main_cst_6, main_v29]

/-- A buffer none of these host operations writes comes out of the stretch as it went in. -/
theorem W1_keep (b : Ref sig .tc) (h : ∀ x ∈ wr0, b ≠ x) :
    W1 m ρ c (no_index (Proc.devRef .tc b)) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (h _ (by decide))))

/-- Pallas call 0 writes only its result array: every other buffer leaves the call as it entered it (an array the
    call reads is read back through its window; any other buffer is not touched). -/
theorem W2_keep (b : Ref sig .tc) (h : b ≠ main_v30) :
    W2 m ρ c (no_index (Proc.devRef .tc b)) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg8
  · subst h1; exact (W2_arr m ρ c 1).trans (((dat0 (V1 m ρ) c).arrAt_in 1 rfl _).trans (A_eq0 (V1 m ρ) c 1))
  by_cases h2 : b = main_arg9
  · subst h2; exact (W2_arr m ρ c 2).trans (((dat0 (V1 m ρ) c).arrAt_in 2 rfl _).trans (A_eq0 (V1 m ρ) c 2))
  exact W2_of_ne m ρ c b fun
    | 0 => fun e => h0 e.symm
    | 1 => fun e => h1 e.symm
    | 2 => fun e => h2 e.symm
    | 3 => fun e => h e.symm
    | ⟨_ + 4, hh⟩ => absurd hh (Nat.not_lt.2 (Nat.le_add_left _ _))

/-- Pallas call 1 writes only its result array: every other buffer leaves the call as it entered it (an array the
    call reads is read back through its window; any other buffer is not touched). -/
theorem W3_keep (b : Ref sig .tc) (h : b ≠ main_v31) :
    W3 m ρ c (no_index (Proc.devRef .tc b)) = W2 m ρ c (Proc.devRef .tc b) := by
  by_cases h0 : b = main_arg0
  · subst h0; exact (W3_arr m ρ c 0).trans (((dat1 (V2 m ρ) c).arrAt_in 0 rfl _).trans (A_eq1 (V2 m ρ) c 0))
  by_cases h1 : b = main_arg2
  · subst h1; exact (W3_arr m ρ c 1).trans (((dat1 (V2 m ρ) c).arrAt_in 1 rfl _).trans (A_eq1 (V2 m ρ) c 1))
  by_cases h2 : b = main_v29
  · subst h2; exact (W3_arr m ρ c 2).trans (((dat1 (V2 m ρ) c).arrAt_in 2 rfl _).trans (A_eq1 (V2 m ρ) c 2))
  exact W3_of_ne m ρ c b fun
    | 0 => fun e => h0 e.symm
    | 1 => fun e => h1 e.symm
    | 2 => fun e => h2 e.symm
    | 3 => fun e => h e.symm
    | ⟨_ + 4, hh⟩ => absurd hh (Nat.not_lt.2 (Nat.le_add_left _ _))

/-- The buffers the host operations between the calls write here. -/
abbrev wr2 : List (Ref sig .tc) :=
  [main_c_7, main_v32, main_v33, main_c_8, main_v34, main_v35, main_v36, main_v37, main_v38, main_v39, main_v40, main_v41, main_cst_9, main_v42, main_v43, main_v44]

/-- A buffer none of these host operations writes comes out of the stretch as it went in. -/
theorem W4_keep (b : Ref sig .tc) (h : ∀ x ∈ wr2, b ≠ x) :
    W4 m ρ c (no_index (Proc.devRef .tc b)) = W3 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (h _ (by decide))))

/-- Pallas call 2 writes only its result array: every other buffer leaves the call as it entered it (an array the
    call reads is read back through its window; any other buffer is not touched). -/
theorem W5_keep (b : Ref sig .tc) (h : b ≠ main_v45) :
    W5 m ρ c (no_index (Proc.devRef .tc b)) = W4 m ρ c (Proc.devRef .tc b) := by
  by_cases h0 : b = main_v31
  · subst h0; exact (W5_arr m ρ c 0).trans (((dat2 (V4 m ρ) c).arrAt_in 0 rfl _).trans (A_eq2 (V4 m ρ) c 0))
  by_cases h1 : b = main_v44
  · subst h1; exact (W5_arr m ρ c 1).trans (((dat2 (V4 m ρ) c).arrAt_in 1 rfl _).trans (A_eq2 (V4 m ρ) c 1))
  by_cases h2 : b = main_v28
  · subst h2; exact (W5_arr m ρ c 2).trans (((dat2 (V4 m ρ) c).arrAt_in 2 rfl _).trans (A_eq2 (V4 m ρ) c 2))
  by_cases h3 : b = main_arg3
  · subst h3; exact (W5_arr m ρ c 3).trans (((dat2 (V4 m ρ) c).arrAt_in 3 rfl _).trans (A_eq2 (V4 m ρ) c 3))
  by_cases h4 : b = main_v30
  · subst h4; exact (W5_arr m ρ c 4).trans (((dat2 (V4 m ρ) c).arrAt_in 4 rfl _).trans (A_eq2 (V4 m ρ) c 4))
  exact W5_of_ne m ρ c b fun
    | 0 => fun e => h0 e.symm
    | 1 => fun e => h1 e.symm
    | 2 => fun e => h2 e.symm
    | 3 => fun e => h3 e.symm
    | 4 => fun e => h4 e.symm
    | 5 => fun e => h e.symm
    | ⟨_ + 6, hh⟩ => absurd hh (Nat.not_lt.2 (Nat.le_add_left _ _))

/-- Pallas call 3 writes only its result array: every other buffer leaves the call as it entered it (an array the
    call reads is read back through its window; any other buffer is not touched). -/
theorem W6_keep (b : Ref sig .tc) (h : b ≠ main_v46) :
    W6 m ρ c (no_index (Proc.devRef .tc b)) = W5 m ρ c (Proc.devRef .tc b) := by
  by_cases h0 : b = main_v45
  · subst h0; exact (W6_arr m ρ c 0).trans (((dat3 (V5 m ρ) c).arrAt_in 0 rfl _).trans (A_eq3 (V5 m ρ) c 0))
  by_cases h1 : b = main_arg4
  · subst h1; exact (W6_arr m ρ c 1).trans (((dat3 (V5 m ρ) c).arrAt_in 1 rfl _).trans (A_eq3 (V5 m ρ) c 1))
  by_cases h2 : b = main_v29
  · subst h2; exact (W6_arr m ρ c 2).trans (((dat3 (V5 m ρ) c).arrAt_in 2 rfl _).trans (A_eq3 (V5 m ρ) c 2))
  exact W6_of_ne m ρ c b fun
    | 0 => fun e => h0 e.symm
    | 1 => fun e => h1 e.symm
    | 2 => fun e => h2 e.symm
    | 3 => fun e => h e.symm
    | ⟨_ + 4, hh⟩ => absurd hh (Nat.not_lt.2 (Nat.le_add_left _ _))

/-- The buffers the host operations between the calls write here. -/
abbrev wr4 : List (Ref sig .tc) :=
  [main_c_10, main_v47, main_v48, main_c_11, main_v49, main_v50, main_v51, main_v52, main_v53, main_v54, main_v55, main_v56, main_cst_12, main_v57, main_v58, main_v59]

/-- A buffer none of these host operations writes comes out of the stretch as it went in. -/
theorem W7_keep (b : Ref sig .tc) (h : ∀ x ∈ wr4, b ≠ x) :
    W7 m ρ c (no_index (Proc.devRef .tc b)) = W6 m ρ c (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (h _ (by decide))))

/-- Pallas call 4 writes only its result array: every other buffer leaves the call as it entered it (an array the
    call reads is read back through its window; any other buffer is not touched). -/
theorem W8_keep (b : Ref sig .tc) (h : b ≠ main_v60) :
    W8 m ρ c (no_index (Proc.devRef .tc b)) = W7 m ρ c (Proc.devRef .tc b) := by
  by_cases h0 : b = main_v46
  · subst h0; exact (W8_arr m ρ c 0).trans (((dat4 (V7 m ρ) c).arrAt_in 0 rfl _).trans (A_eq4 (V7 m ρ) c 0))
  by_cases h1 : b = main_v59
  · subst h1; exact (W8_arr m ρ c 1).trans (((dat4 (V7 m ρ) c).arrAt_in 1 rfl _).trans (A_eq4 (V7 m ρ) c 1))
  by_cases h2 : b = main_v28
  · subst h2; exact (W8_arr m ρ c 2).trans (((dat4 (V7 m ρ) c).arrAt_in 2 rfl _).trans (A_eq4 (V7 m ρ) c 2))
  by_cases h3 : b = main_arg5
  · subst h3; exact (W8_arr m ρ c 3).trans (((dat4 (V7 m ρ) c).arrAt_in 3 rfl _).trans (A_eq4 (V7 m ρ) c 3))
  exact W8_of_ne m ρ c b fun
    | 0 => fun e => h0 e.symm
    | 1 => fun e => h1 e.symm
    | 2 => fun e => h2 e.symm
    | 3 => fun e => h3 e.symm
    | 4 => fun e => h e.symm
    | ⟨_ + 5, hh⟩ => absurd hh (Nat.not_lt.2 (Nat.le_add_left _ _))

/-- Pallas call 5 writes only its result array: every other buffer leaves the call as it entered it (an array the
    call reads is read back through its window; any other buffer is not touched). -/
theorem W9_keep (b : Ref sig .tc) (h : b ≠ main_v61) :
    W9 m ρ c (no_index (Proc.devRef .tc b)) = W8 m ρ c (Proc.devRef .tc b) := by
  by_cases h0 : b = main_v60
  · subst h0; exact (W9_arr m ρ c 0).trans (((dat5 (V8 m ρ) c).arrAt_in 0 rfl _).trans (A_eq5 (V8 m ρ) c 0))
  by_cases h1 : b = main_arg6
  · subst h1; exact (W9_arr m ρ c 1).trans (((dat5 (V8 m ρ) c).arrAt_in 1 rfl _).trans (A_eq5 (V8 m ρ) c 1))
  by_cases h2 : b = main_v29
  · subst h2; exact (W9_arr m ρ c 2).trans (((dat5 (V8 m ρ) c).arrAt_in 2 rfl _).trans (A_eq5 (V8 m ρ) c 2))
  exact W9_of_ne m ρ c b fun
    | 0 => fun e => h0 e.symm
    | 1 => fun e => h1 e.symm
    | 2 => fun e => h2 e.symm
    | 3 => fun e => h e.symm
    | ⟨_ + 4, hh⟩ => absurd hh (Nat.not_lt.2 (Nat.le_add_left _ _))

/-- The buffers the host operations between the calls write here. -/
abbrev wr6 : List (Ref sig .tc) :=
  [main_c_13, main_v62, main_v63, main_c_14, main_v64, main_v65, main_v66, main_v67, main_v68, main_v69, main_v70, main_v71, main_cst_15, main_v72, main_v73, main_v74]

/-- A buffer none of these host operations writes comes out of the stretch as it went in. -/
theorem W10_keep (b : Ref sig .tc) (h : ∀ x ∈ wr6, b ≠ x) :
    W10 m ρ c (no_index (Proc.devRef .tc b)) = W9 m ρ c (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (h _ (by decide))))

/-- Pallas call 6 writes only its result array: every other buffer leaves the call as it entered it (an array the
    call reads is read back through its window; any other buffer is not touched). -/
theorem W11_keep (b : Ref sig .tc) (h : b ≠ main_v75) :
    W11 m ρ c (no_index (Proc.devRef .tc b)) = W10 m ρ c (Proc.devRef .tc b) := by
  by_cases h0 : b = main_v61
  · subst h0; exact (W11_arr m ρ c 0).trans (((dat6 (V10 m ρ) c).arrAt_in 0 rfl _).trans (A_eq6 (V10 m ρ) c 0))
  by_cases h1 : b = main_v74
  · subst h1; exact (W11_arr m ρ c 1).trans (((dat6 (V10 m ρ) c).arrAt_in 1 rfl _).trans (A_eq6 (V10 m ρ) c 1))
  by_cases h2 : b = main_v28
  · subst h2; exact (W11_arr m ρ c 2).trans (((dat6 (V10 m ρ) c).arrAt_in 2 rfl _).trans (A_eq6 (V10 m ρ) c 2))
  by_cases h3 : b = main_arg7
  · subst h3; exact (W11_arr m ρ c 3).trans (((dat6 (V10 m ρ) c).arrAt_in 3 rfl _).trans (A_eq6 (V10 m ρ) c 3))
  exact W11_of_ne m ρ c b fun
    | 0 => fun e => h0 e.symm
    | 1 => fun e => h1 e.symm
    | 2 => fun e => h2 e.symm
    | 3 => fun e => h3 e.symm
    | 4 => fun e => h e.symm
    | ⟨_ + 5, hh⟩ => absurd hh (Nat.not_lt.2 (Nat.le_add_left _ _))

/-- Pallas call 7 writes only its result array: every other buffer leaves the call as it entered it (an array the
    call reads is read back through its window; any other buffer is not touched). -/
theorem W12_keep (b : Ref sig .tc) (h : b ≠ main_v76) :
    W12 m ρ c (no_index (Proc.devRef .tc b)) = W11 m ρ c (Proc.devRef .tc b) := by
  by_cases h0 : b = main_v75
  · subst h0; exact (W12_arr m ρ c 0).trans (((dat7 (V11 m ρ) c).arrAt_in 0 rfl _).trans (A_eq7 (V11 m ρ) c 0))
  by_cases h1 : b = main_arg10
  · subst h1; exact (W12_arr m ρ c 1).trans (((dat7 (V11 m ρ) c).arrAt_in 1 rfl _).trans (A_eq7 (V11 m ρ) c 1))
  by_cases h2 : b = main_arg11
  · subst h2; exact (W12_arr m ρ c 2).trans (((dat7 (V11 m ρ) c).arrAt_in 2 rfl _).trans (A_eq7 (V11 m ρ) c 2))
  exact W12_of_ne m ρ c b fun
    | 0 => fun e => h0 e.symm
    | 1 => fun e => h1 e.symm
    | 2 => fun e => h2 e.symm
    | 3 => fun e => h e.symm
    | ⟨_ + 4, hh⟩ => absurd hh (Nat.not_lt.2 (Nat.le_add_left _ _))

end Cert.KernelIdeal.Fold

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LibColumn.lean ====
/-
  A column read at an index.

  A vector of length a cast to an a-by-1 column reads, at (i, u), the vector at i; an a-by-1 column
  broadcast across b lanes reads, at (p, c), the column's entry of row p. These are the keep-dims forms a
  row reduction leaves behind: the reduced value of row p, used again at every lane of that row.
-/
import Idealize.ShloMosaic.Lib.ValueLayout

namespace Idealize.ShloMosaic.ColumnIdx

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnIdx
-- ==== Proof.LibGcnRows.lean ====
/-
  One row of a dense layer and one row of a graph-convolution epilogue, read at an index over the extended reals.

  A dense layer sends row r of X to the row  q ↦ Σ_k X(r, k) · W(k, q) + b(q).  The epilogue of a graph convolution sends
  row r of the aggregate A, of the features H, of the column D and (when there is one) of the residual R to the row
  q ↦ max (((A(r, q) + H(r, q) · D(r)) + b(q)) + R(r, q), z).  Both are stated twice: as the vector operations compute
  them on a block of rows (a product into the zero accumulator, the bias vector viewed as one row and spread over the
  block, the column spread over the lanes), and as the host's operations compute them on whole arrays (a general
  product, the bias spread by two broadcasts in dimensions, the column spread in dimensions [0, 1]).  Each statement
  reads the operation at (p, q) as the formula above of the operands' entries, with the additions grouped as written;
  nothing about finiteness is used.
-/
import Idealize.ShloMosaic.Lib.ValueIdx
import Idealize.ShloMosaic.Lib.ValueLayout
import Idealize.ShloMosaic.Lib.Pipeline.Value
import Idealize.ShloMosaic.PureOps.Ideal.Laws
import proofs.«100985_j73658689126419_1_alg».proof.Proof.LibPlainDot
import proofs.«100985_j73658689126419_1_alg».proof.Proof.LibRowSpread
import proofs.«100985_j73658689126419_1_alg».proof.Proof.LibColumn

noncomputable section

open scoped BigOperators

namespace Cert.Rows

open Idealize.ShloMosaic Idealize.ShloMosaic.ValueIdx

variable {m M K N : Nat}

/-! ## The formulas -/

/-- Entry (r, q) of a dense layer: Σ_k X(r, k) · W(k, q) + b(q). -/
def denseAt (X : (⟨2, ![M, K]⟩ : Shape).Idx → EReal) (W : (⟨2, ![K, N]⟩ : Shape).Idx → EReal)
    (b : (⟨1, ![N]⟩ : Shape).Idx → EReal) (r : Fin M) (q : Fin N) : EReal :=
  (∑ k : Fin K, X (ix2 r k) * W (ix2 k q)) + b (ix1 q)

/-- Entry (r, q) of a plain product: Σ_k X(r, k) · W(k, q). -/
def prodAt (X : (⟨2, ![M, K]⟩ : Shape).Idx → EReal) (W : (⟨2, ![K, N]⟩ : Shape).Idx → EReal) (r : Fin M) (q : Fin N) : EReal :=
  ∑ k : Fin K, X (ix2 r k) * W (ix2 k q)

/-- Entry (r, q) of the epilogue with a residual: max (((A + H · D) + b) + R, z). -/
def combineResAt (A H : (⟨2, ![M, N]⟩ : Shape).Idx → EReal) (D : (⟨2, ![M, 1]⟩ : Shape).Idx → EReal)
    (b : (⟨1, ![N]⟩ : Shape).Idx → EReal) (R : (⟨2, ![M, N]⟩ : Shape).Idx → EReal) (z : EReal) (r : Fin M) (q : Fin N) : EReal :=
  max (((A (ix2 r q) + H (ix2 r q) * D (ix2 r (0 : Fin 1))) + b (ix1 q)) + R (ix2 r q)) z

/-- Entry (r, q) of the epilogue without a residual: max ((A + H · D) + b, z). -/
def combineAt (A H : (⟨2, ![M, N]⟩ : Shape).Idx → EReal) (D : (⟨2, ![M, 1]⟩ : Shape).Idx → EReal)
    (b : (⟨1, ![N]⟩ : Shape).Idx → EReal) (z : EReal) (r : Fin M) (q : Fin N) : EReal :=
  max ((A (ix2 r q) + H (ix2 r q) * D (ix2 r (0 : Fin 1))) + b (ix1 q)) z

/-- A dense layer whose bias is zero everywhere is the plain product. -/
theorem denseAt_zero (X : (⟨2, ![M, K]⟩ : Shape).Idx → EReal) (W : (⟨2, ![K, N]⟩ : Shape).Idx → EReal)
    (b : (⟨1, ![N]⟩ : Shape).Idx → EReal) (hb : ∀ q : Fin N, b (ix1 q) = 0) (r : Fin M) (q : Fin N) :
    denseAt X W b r q = prodAt X W r q := by
  unfold denseAt prodAt
  rw [hb]
  exact add_zero _

/-! ## Small layout facts on the host's side -/

/-- The host's view of a vector as one row (broadcast in dimension [1]) reads, at (u, q), the vector at q. -/
theorem vecAsRow_apply {α : Type} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) := by
  refine broadcastInDim_apply ![1] h b (ix2 u q) (ix1 q) fun ax => ?_
  match ax with
  | ⟨0, _⟩ =>
    show q.val = if N = 1 then 0 else q.val
    split
    · have := q.isLt; omega
    · rfl

/-- The host's spread of a column over N lanes (broadcast in dimensions [0, 1]) reads, at (r, q), the column at row r. -/
theorem colSpread_apply {α : Type} (w : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h w (ix2 r q) = w (ix2 r (0 : Fin 1)) := by
  refine broadcastInDim_apply ![0, 1] h w (ix2 r q) (ix2 r (0 : Fin 1)) fun ax => ?_
  match ax with
  | ⟨0, _⟩ =>
    show r.val = if M = 1 then 0 else r.val
    split
    · have := r.isLt; omega
    · rfl
  | ⟨1, _⟩ => rfl

/-! ## The dense layer -/

/-- A block of rows of the dense layer as the vector operations compute it: the product of the block with the weights
    into the zero accumulator, plus the bias vector viewed as one row and spread over the block. -/
theorem dense_block_apply {φ₁ φ₂ : FTy} (prec : Option ContractPrecision)
    (xl : FVec Ideal ⟨2, ![m, K]⟩ φ₁) (wl : FVec Ideal ⟨2, ![K, N]⟩ φ₂) (bl : FVec Ideal ⟨1, ![N]⟩ .f32)
    (hc : (⟨1, ![N]⟩ : Shape).ShapeCasts ⟨2, ![1, N]⟩) (hv : (⟨2, ![1, N]⟩ : Shape).Broadcasts ⟨2, ![m, N]⟩)
    (p : Fin m) (q : Fin N) :
    addf (matmul (DotDims.plain m K N) prec xl wl (constant ⟨2, ![m, N]⟩ .f32 0x00000000#32))
        (broadcastTo ⟨2, ![m, N]⟩ (shapeCast ⟨2, ![1, N]⟩ bl hc) hv) (ix2 p q)
      = denseAt xl wl bl p q := by
  unfold denseAt
  rw [addf_apply, RowSpread.rowBcast_apply, shapeCast_a_1a_apply]
  exact congrArg (· + bl (ix1 q)) (PlainDot.matmul_zero_apply prec xl wl p q)

/-- The host's dense layer on whole arrays: the general product plus the bias spread over the rows. -/
theorem dense_host_apply (X : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (hh : (⟨2, ![1, N]⟩ : Shape).BroadcastsInDim ⟨2, ![M, N]⟩ ![0, 1]) (r : Fin M) (q : Fin N) :
    addf (Host.dotGeneral (DotDims.plain M K N) none X W)
        (broadcastInDim ⟨2, ![M, N]⟩ ![0, 1] hh (broadcastInDim ⟨2, ![1, N]⟩ ![1] h1 b)) (ix2 r q)
      = denseAt X W b r q := by
  unfold denseAt
  rw [addf_apply, RowSpread.rowInDim2_apply, vecAsRow_apply]
  exact congrArg (· + b (ix1 q)) (PlainDot.dotGeneral_apply none .single X W r q)

/-- The host's plain product on whole arrays. -/
theorem prod_host_apply (X : FVec Ideal ⟨2, ![M, K]⟩ .f32) (W : FVec Ideal ⟨2, ![K, N]⟩ .f32) (r : Fin M) (q : Fin N) :
    Host.dotGeneral (DotDims.plain M K N) none X W (ix2 r q) = prodAt X W r q :=
  PlainDot.dotGeneral_apply none .single X W r q

/-! ## The epilogue -/

/-- A block of rows of the epilogue with a residual as the vector operations compute it. -/
theorem combineRes_block_apply (ab hb rb : FVec Ideal ⟨2, ![m, N]⟩ .f32) (db : FVec Ideal ⟨2, ![m, 1]⟩ .f32)
    (bl : FVec Ideal ⟨1, ![N]⟩ .f32)
    (hcA : (⟨2, ![m, N]⟩ : Shape).ShapeCasts ⟨2, ![m, N]⟩) (hcD : (⟨2, ![m, 1]⟩ : Shape).ShapeCasts ⟨2, ![m, 1]⟩)
    (hc : (⟨1, ![N]⟩ : Shape).ShapeCasts ⟨2, ![1, N]⟩)
    (hvD : (⟨2, ![m, 1]⟩ : Shape).Broadcasts ⟨2, ![m, N]⟩) (hv : (⟨2, ![1, N]⟩ : Shape).Broadcasts ⟨2, ![m, N]⟩)
    (z : BitVec 32) (p : Fin m) (q : Fin N) :
    maximumf (addf (addf (addf (shapeCast ⟨2, ![m, N]⟩ ab hcA)
            (mulf (shapeCast ⟨2, ![m, N]⟩ hb hcA) (broadcastTo ⟨2, ![m, N]⟩ (shapeCast ⟨2, ![m, 1]⟩ db hcD) hvD)))
          (broadcastTo ⟨2, ![m, N]⟩ (shapeCast ⟨2, ![1, N]⟩ bl hc) hv))
        (shapeCast ⟨2, ![m, N]⟩ rb hcA))
      (broadcast ⟨2, ![m, N]⟩ (Scalar.ofBits (F := Ideal) .f32 z)) (ix2 p q)
      = combineResAt ab hb db bl rb (Ideal.ofBits .f32 z) p q := by
  unfold combineResAt
  rw [maximumf_apply, addf_apply, addf_apply, addf_apply, mulf_apply,
    shapeCast_self, shapeCast_self, shapeCast_self, shapeCast_self,
    ColumnIdx.broadcastTo_a1_ab_apply, RowSpread.rowBcast_apply, shapeCast_a_1a_apply, broadcast_apply]
  rfl

/-- A block of rows of the epilogue without a residual as the vector operations compute it. -/
theorem combine_block_apply (ab hb : FVec Ideal ⟨2, ![m, N]⟩ .f32) (db : FVec Ideal ⟨2, ![m, 1]⟩ .f32)
    (bl : FVec Ideal ⟨1, ![N]⟩ .f32)
    (hcA : (⟨2, ![m, N]⟩ : Shape).ShapeCasts ⟨2, ![m, N]⟩) (hcD : (⟨2, ![m, 1]⟩ : Shape).ShapeCasts ⟨2, ![m, 1]⟩)
    (hc : (⟨1, ![N]⟩ : Shape).ShapeCasts ⟨2, ![1, N]⟩)
    (hvD : (⟨2, ![m, 1]⟩ : Shape).Broadcasts ⟨2, ![m, N]⟩) (hv : (⟨2, ![1, N]⟩ : Shape).Broadcasts ⟨2, ![m, N]⟩)
    (z : BitVec 32) (p : Fin m) (q : Fin N) :
    maximumf (addf (addf (shapeCast ⟨2, ![m, N]⟩ ab hcA)
            (mulf (shapeCast ⟨2, ![m, N]⟩ hb hcA) (broadcastTo ⟨2, ![m, N]⟩ (shapeCast ⟨2, ![m, 1]⟩ db hcD) hvD)))
          (broadcastTo ⟨2, ![m, N]⟩ (shapeCast ⟨2, ![1, N]⟩ bl hc) hv))
      (broadcast ⟨2, ![m, N]⟩ (Scalar.ofBits (F := Ideal) .f32 z)) (ix2 p q)
      = combineAt ab hb db bl (Ideal.ofBits .f32 z) p q := by
  unfold combineAt
  rw [maximumf_apply, addf_apply, addf_apply, mulf_apply,
    shapeCast_self, shapeCast_self, shapeCast_self,
    ColumnIdx.broadcastTo_a1_ab_apply, RowSpread.rowBcast_apply, shapeCast_a_1a_apply, broadcast_apply]
  rfl

/-- The host's epilogue with a residual on whole arrays. -/
theorem combineRes_host_apply (A H R : FVec Ideal ⟨2, ![M, N]⟩ .f32) (D : FVec Ideal ⟨2, ![M, 1]⟩ .f32)
    (b : FVec Ideal ⟨1, ![N]⟩ .f32)
    (hc : (⟨2, ![M, 1]⟩ : Shape).BroadcastsInDim ⟨2, ![M, N]⟩ ![0, 1])
    (h1 : (⟨1, ![N]⟩ : Shape).BroadcastsInDim ⟨2, ![1, N]⟩ ![1])
    (hh : (⟨2, ![1, N]⟩ : Shape).BroadcastsInDim ⟨2, ![M, N]⟩ ![0, 1])
    (h0 : (⟨0, ![]⟩ : Shape).BroadcastsInDim ⟨2, ![M, N]⟩ ![]) (z : BitVec 32) (r : Fin M) (q : Fin N) :
    maximumf (addf (addf (addf A (mulf H (broadcastInDim ⟨2, ![M, N]⟩ ![0, 1] hc D)))
          (broadcastInDim ⟨2, ![M, N]⟩ ![0, 1] hh (broadcastInDim ⟨2, ![1, N]⟩ ![1] h1 b))) R)
      (broadcastInDim ⟨2, ![M, N]⟩ ![] h0 (constant (F := Ideal) ⟨0, ![]⟩ .f32 z)) (ix2 r q)
      = combineResAt A H D b R (Ideal.ofBits .f32 z) r q := by
  unfold combineResAt
  rw [maximumf_apply, addf_apply, addf_apply, addf_apply, mulf_apply,
    colSpread_apply, RowSpread.rowInDim2_apply, vecAsRow_apply, RowSpread.scalarInDim_apply, constant_apply]

/-- The host's epilogue without a residual on whole arrays. -/
theorem combine_host_apply (A H : FVec Ideal ⟨2, ![M, N]⟩ .f32) (D : FVec Ideal ⟨2, ![M, 1]⟩ .f32)
    (b : FVec Ideal ⟨1, ![N]⟩ .f32)
    (hc : (⟨2, ![M, 1]⟩ : Shape).BroadcastsInDim ⟨2, ![M, N]⟩ ![0, 1])
    (h1 : (⟨1, ![N]⟩ : Shape).BroadcastsInDim ⟨2, ![1, N]⟩ ![1])
    (hh : (⟨2, ![1, N]⟩ : Shape).BroadcastsInDim ⟨2, ![M, N]⟩ ![0, 1])
    (h0 : (⟨0, ![]⟩ : Shape).BroadcastsInDim ⟨2, ![M, N]⟩ ![]) (z : BitVec 32) (r : Fin M) (q : Fin N) :
    maximumf (addf (addf A (mulf H (broadcastInDim ⟨2, ![M, N]⟩ ![0, 1] hc D)))
          (broadcastInDim ⟨2, ![M, N]⟩ ![0, 1] hh (broadcastInDim ⟨2, ![1, N]⟩ ![1] h1 b)))
      (broadcastInDim ⟨2, ![M, N]⟩ ![] h0 (constant (F := Ideal) ⟨0, ![]⟩ .f32 z)) (ix2 r q)
      = combineAt A H D b (Ideal.ofBits .f32 z) r q := by
  unfold combineAt
  rw [maximumf_apply, addf_apply, addf_apply, mulf_apply,
    colSpread_apply, RowSpread.rowInDim2_apply, vecAsRow_apply, RowSpread.scalarInDim_apply, constant_apply]

end Cert.Rows

end
-- ==== Proof.Spec.lean ====
/-
  The whole arrays this program computes, as functions of an index.

  All node arrays have 50000 rows.  A dense layer of the node features is the array whose entry (r, q) is
  Σ_k X(r, k) · W(k, q) + b(q); a plain product leaves out the bias; the epilogue of a graph convolution is the array
  whose entry (r, q) is max (((A(r, q) + H(r, q) · D(r)) + b(q)) + R(r, q), 0), with or without the residual R.  The
  clamp's zero is kept as the extended real of the all-zero 32-bit word: it is the same word on both sides and is never
  evaluated.
-/
import proofs.«100985_j73658689126419_1_alg».proof.Proof.LibGcnRows

noncomputable section

namespace Cert.Spec

open Idealize.ShloMosaic Idealize.ShloMosaic.ValueIdx

variable {K N : Nat}

/-- The dense layer of 50000 rows. -/
def dense (X : (⟨2, ![50000, K]⟩ : Shape).Idx → EReal) (W : (⟨2, ![K, N]⟩ : Shape).Idx → EReal)
    (b : (⟨1, ![N]⟩ : Shape).Idx → EReal) : (⟨2, ![50000, N]⟩ : Shape).Idx → EReal :=
  fun i => Rows.denseAt X W b (i 0) (i 1)

/-- The plain product of 50000 rows. -/
def prod (X : (⟨2, ![50000, K]⟩ : Shape).Idx → EReal) (W : (⟨2, ![K, N]⟩ : Shape).Idx → EReal) :
    (⟨2, ![50000, N]⟩ : Shape).Idx → EReal :=
  fun i => Rows.prodAt X W (i 0) (i 1)

/-- The epilogue with a residual, clamped at zero. -/
def combineRes (A H : (⟨2, ![50000, N]⟩ : Shape).Idx → EReal) (D : (⟨2, ![50000, 1]⟩ : Shape).Idx → EReal)
    (b : (⟨1, ![N]⟩ : Shape).Idx → EReal) (R : (⟨2, ![50000, N]⟩ : Shape).Idx → EReal) :
    (⟨2, ![50000, N]⟩ : Shape).Idx → EReal :=
  fun i => Rows.combineResAt A H D b R (Ideal.ofBits .f32 0x00000000#32) (i 0) (i 1)

/-- The epilogue without a residual, clamped at zero. -/
def combine (A H : (⟨2, ![50000, N]⟩ : Shape).Idx → EReal) (D : (⟨2, ![50000, 1]⟩ : Shape).Idx → EReal)
    (b : (⟨1, ![N]⟩ : Shape).Idx → EReal) : (⟨2, ![50000, N]⟩ : Shape).Idx → EReal :=
  fun i => Rows.combineAt A H D b (Ideal.ofBits .f32 0x00000000#32) (i 0) (i 1)

/-- A dense layer whose bias is zero everywhere is the plain product. -/
theorem dense_zero (X : (⟨2, ![50000, K]⟩ : Shape).Idx → EReal) (W : (⟨2, ![K, N]⟩ : Shape).Idx → EReal)
    (b : (⟨1, ![N]⟩ : Shape).Idx → EReal) (hb : ∀ q : Fin N, b (ix1 q) = 0) : dense X W b = prod X W :=
  funext fun i => Rows.denseAt_zero X W b hb (i 0) (i 1)

end Cert.Spec

end
-- ==== Proof.Reg0.lean ====
/-
  Pallas call 0: a dense layer, 2000 rows at a time.

  Grid point t reads rows 2000·t … 2000·t + 1999 of the node features, all of the weights and the whole bias vector,
  and writes rows 2000·t … 2000·t + 1999 of the result.  Entry (p, q) of the block it writes is
  Σ_k X(2000·t + p, k) · W(k, q) + b(q): the entry (2000·t + p, q) of the dense layer of the whole arrays.  The 25
  blocks tile the 50000 rows, so after the call the result array is that dense layer.  Stated for any contents of the
  buffers at the call's entry.
-/
import proofs.«100985_j73658689126419_1_alg».proof.Proof.Gen.KernelIdeal.Frame
import proofs.«100985_j73658689126419_1_alg».proof.Proof.Spec
import Idealize.ShloMosaic.Lib.Pipeline.Value

noncomputable section

open scoped BigOperators

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block the body leaves is its one store's payload of the three blocks it loaded. -/
theorem out_eq (x0 : Vec Ideal S2000x128 .f32) (x1 : Vec Ideal S128x128 .f32) (x2 : Vec Ideal S128 .f32) :
    out0_3 x0 x1 x2 = k0_pay1 x0 x1 x2 := by
  unfold out0_3
  rw [View.canon_unit_zero hz2]
  simp only [View.ld_unit_zero (S := S2000x128) hz2, View.ld_unit_zero (S := S128x128) hz2, View.ld_unit_zero (S := S128) hz1]

/-- The payload at (p, q): the dense layer's entry of the loaded blocks (the format changes are the identity). -/
theorem pay_apply (x0 : Vec Ideal S2000x128 .f32) (x1 : Vec Ideal S128x128 .f32) (x2 : Vec Ideal S128 .f32)
    (p : Fin 2000) (q : Fin 128) : k0_pay1 x0 x1 x2 (ix2 p q) = Rows.denseAt x0 x1 x2 p q := by
  unfold k0_pay1
  exact Rows.dense_block_apply none (truncf .bf16 x0 bitsLt_bf16_f32) (truncf .bf16 x1 bitsLt_bf16_f32) x2
    shapeCasts_S128_S1x128 broadcasts_S1x128_S2000x128 p q

/-- The printed index maps over the grid: the row blocks move with the point, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Row p of the feature block at point t is row 2000·t + p of the feature array. -/
theorem read_x (c : Dev nD) (t : Fin cfg0.N) (p : Fin 2000) (j : Fin 128) (r : Fin 50000) (hr : r.val = t.val * 2000 + p.val) :
    (iblk0 V c 0 t : Vec Ideal S2000x128 .f32) (ix2 p j) = (V c main_arg0 : S50000x128.Idx → EReal) (ix2 r j) := by
  obtain ⟨e0, e1, -⟩ := idx_facts t
  unfold iblk0
  rw [View.read_apply]
  show V c main_arg0 _ = V c main_arg0 _
  refine congrArg (V c main_arg0) ?_
  funext a; apply Fin.ext
  match a with
  | ⟨0, _⟩ => show win0_0.index t (0 : Fin 2) * 2000 + 1 * p.val = r.val; rw [e0, hr]; omega
  | ⟨1, _⟩ => show win0_0.index t (1 : Fin 2) * 128 + 1 * j.val = j.val; rw [e1]; omega

/-- The weight block at every point is the whole weight array. -/
theorem read_w (c : Dev nD) (t : Fin cfg0.N) (j : Fin 128) (q : Fin 128) :
    (iblk0 V c 1 t : Vec Ideal S128x128 .f32) (ix2 j q) = (V c main_arg8 : S128x128.Idx → EReal) (ix2 j q) := by
  obtain ⟨-, -, e2, e3, -⟩ := idx_facts t
  unfold iblk0
  rw [View.read_apply]
  show V c main_arg8 _ = V c main_arg8 _
  refine congrArg (V c main_arg8) ?_
  funext a; apply Fin.ext
  match a with
  | ⟨0, _⟩ => show win0_1.index t (0 : Fin 2) * 128 + 1 * j.val = j.val; rw [e2]; omega
  | ⟨1, _⟩ => show win0_1.index t (1 : Fin 2) * 128 + 1 * q.val = q.val; rw [e3]; omega

/-- The bias block at every point is the whole bias vector. -/
theorem read_b (c : Dev nD) (t : Fin cfg0.N) (q : Fin 128) :
    (iblk0 V c 2 t : Vec Ideal S128 .f32) (ix1 q) = (V c main_arg9 : S128.Idx → EReal) (ix1 q) := by
  obtain ⟨-, -, -, -, e4, -⟩ := idx_facts t
  unfold iblk0
  rw [View.read_apply]
  show V c main_arg9 _ = V c main_arg9 _
  refine congrArg (V c main_arg9) ?_
  funext a; apply Fin.ext
  match a with
  | ⟨0, _⟩ => show win0_2.index t (0 : Fin 1) * 128 + 1 * q.val = q.val; rw [e4]; omega

/-- What point t writes back is its block of the dense layer of the arrays as the call finds them. -/
theorem flushed_eq (c : Dev nD) (t : Fin cfg0.N) :
    (dat0 V c).flushed 3 t
      = ((cfg0.win 3).blk t).view.read (Elt Ideal) (Spec.dense (V c main_arg0) (V c main_arg8) (V c main_arg9)) := by
  show (cfg0.win 3).cut (grid0.coords t) ((dat0 V c).after 3 t) = _
  rw [after0_3, out_eq]
  funext y
  obtain ⟨p, q, rfl⟩ : ∃ (p : Fin 2000) (q : Fin 128), y = ix2 p q := ⟨y 0, y 1, eq_ix2 y⟩
  have hN : cfg0.N = 25 := N_0
  have ht := t.isLt
  have hp := p.isLt
  obtain ⟨-, -, -, -, -, e5, e6⟩ := idx_facts t
  have hemb : ((cfg0.win 3).blk t).view.emb (ix2 p q) = ix2 (⟨t.val * 2000 + p.val, by omega⟩ : Fin 50000) q := by
    funext a; apply Fin.ext
    match a with
    | ⟨0, _⟩ => show win0_3.index t (0 : Fin 2) * 2000 + 1 * p.val = t.val * 2000 + p.val; rw [e5]; omega
    | ⟨1, _⟩ => show win0_3.index t (1 : Fin 2) * 128 + 1 * q.val = q.val; rw [e6]; omega
  show k0_pay1 (iblk0 V c 0 t) (iblk0 V c 1 t) (iblk0 V c 2 t) (ix2 p q)
    = Spec.dense (V c main_arg0) (V c main_arg8) (V c main_arg9) (((cfg0.win 3).blk t).view.emb (ix2 p q))
  rw [hemb]
  refine (pay_apply (iblk0 V c 0 t) (iblk0 V c 1 t) (iblk0 V c 2 t) p q).trans ?_
  show Rows.denseAt _ _ _ p q = Rows.denseAt _ _ _ (⟨t.val * 2000 + p.val, by omega⟩ : Fin 50000) q
  unfold Rows.denseAt
  refine congr (congrArg HAdd.hAdd (Finset.sum_congr rfl fun j _ => ?_)) (read_b V c t q)
  exact congr (congrArg HMul.hMul (read_x V c t p j ⟨t.val * 2000 + p.val, by omega⟩ rfl)) (read_w V c t j q)

/-- Every row of the result lies in the block of the point that is its quotient by 2000. -/
theorem cover (i : S50000x128.Idx) : ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  let t : Fin cfg0.N := ⟨(i 0).val / 2000, by omega⟩
  obtain ⟨-, -, -, -, -, e5, e6⟩ := idx_facts t
  refine ⟨t, flush0_3 t, ?_⟩
  show i ∈ ((View.whole main_v30).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    rw [e5]; show (i 0).val / 2000 * 2000 ≤ (i 0).val ∧ (i 0).val < (i 0).val / 2000 * 2000 + 2000; omega
  | ⟨1, _⟩ =>
    show win0_3.index t (1 : Fin 2) * 128 ≤ (i 1).val ∧ (i 1).val < win0_3.index t (1 : Fin 2) * 128 + 128
    rw [e6]; omega

/-- After the call the result array is the dense layer of the arrays as the call found them. -/
theorem value (c : Dev nD) :
    (dat0 V c).arrAt 3 cfg0.N = Spec.dense (V c main_arg0) (V c main_arg8) (V c main_arg9) :=
  (dat0 V c).arrAt_eq_of_cover 3 _ (fun t _ => flushed_eq V c t) cover

end Cert.KernelIdeal.Reg0

end
-- ==== Proof.Reg1.lean ====
/-
  Pallas call 1: a dense layer, 2000 rows at a time.

  Grid point t reads rows 2000·t … 2000·t + 1999 of the node features, all of the weights and the whole bias vector,
  and writes rows 2000·t … 2000·t + 1999 of the result.  Entry (p, q) of the block it writes is
  Σ_k X(2000·t + p, k) · W(k, q) + b(q): the entry (2000·t + p, q) of the dense layer of the whole arrays.  The 25
  blocks tile the 50000 rows, so after the call the result array is that dense layer.  Stated for any contents of the
  buffers at the call's entry.
-/
import proofs.«100985_j73658689126419_1_alg».proof.Proof.Gen.KernelIdeal.Frame
import proofs.«100985_j73658689126419_1_alg».proof.Proof.Spec
import Idealize.ShloMosaic.Lib.Pipeline.Value

noncomputable section

open scoped BigOperators

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block the body leaves is its one store's payload of the three blocks it loaded. -/
theorem out_eq (x0 : Vec Ideal S2000x128 .f32) (x1 : Vec Ideal S128x128 .f32) (x2 : Vec Ideal S128 .f32) :
    out1_3 x0 x1 x2 = k1_pay1 x0 x1 x2 := by
  unfold out1_3
  rw [View.canon_unit_zero hz2]
  simp only [View.ld_unit_zero (S := S2000x128) hz2, View.ld_unit_zero (S := S128x128) hz2, View.ld_unit_zero (S := S128) hz1]

/-- The payload at (p, q): the dense layer's entry of the loaded blocks (the format changes are the identity). -/
theorem pay_apply (x0 : Vec Ideal S2000x128 .f32) (x1 : Vec Ideal S128x128 .f32) (x2 : Vec Ideal S128 .f32)
    (p : Fin 2000) (q : Fin 128) : k1_pay1 x0 x1 x2 (ix2 p q) = Rows.denseAt x0 x1 x2 p q := by
  unfold k1_pay1
  simp only [shapeCast_self]
  exact Rows.dense_block_apply none (truncf .bf16 x0 bitsLt_bf16_f32) (truncf .bf16 x1 bitsLt_bf16_f32) x2
    shapeCasts_S128_S1x128 broadcasts_S1x128_S2000x128 p q

/-- The printed index maps over the grid: the row blocks move with the point, the weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Row p of the feature block at point t is row 2000·t + p of the feature array. -/
theorem read_x (c : Dev nD) (t : Fin cfg1.N) (p : Fin 2000) (j : Fin 128) (r : Fin 50000) (hr : r.val = t.val * 2000 + p.val) :
    (iblk1 V c 0 t : Vec Ideal S2000x128 .f32) (ix2 p j) = (V c main_arg0 : S50000x128.Idx → EReal) (ix2 r j) := by
  obtain ⟨e0, e1, -⟩ := idx_facts t
  unfold iblk1
  rw [View.read_apply]
  show V c main_arg0 _ = V c main_arg0 _
  refine congrArg (V c main_arg0) ?_
  funext a; apply Fin.ext
  match a with
  | ⟨0, _⟩ => show win1_0.index t (0 : Fin 2) * 2000 + 1 * p.val = r.val; rw [e0, hr]; omega
  | ⟨1, _⟩ => show win1_0.index t (1 : Fin 2) * 128 + 1 * j.val = j.val; rw [e1]; omega

/-- The weight block at every point is the whole weight array. -/
theorem read_w (c : Dev nD) (t : Fin cfg1.N) (j : Fin 128) (q : Fin 128) :
    (iblk1 V c 1 t : Vec Ideal S128x128 .f32) (ix2 j q) = (V c main_arg2 : S128x128.Idx → EReal) (ix2 j q) := by
  obtain ⟨-, -, e2, e3, -⟩ := idx_facts t
  unfold iblk1
  rw [View.read_apply]
  show V c main_arg2 _ = V c main_arg2 _
  refine congrArg (V c main_arg2) ?_
  funext a; apply Fin.ext
  match a with
  | ⟨0, _⟩ => show win1_1.index t (0 : Fin 2) * 128 + 1 * j.val = j.val; rw [e2]; omega
  | ⟨1, _⟩ => show win1_1.index t (1 : Fin 2) * 128 + 1 * q.val = q.val; rw [e3]; omega

/-- The bias block at every point is the whole bias vector. -/
theorem read_b (c : Dev nD) (t : Fin cfg1.N) (q : Fin 128) :
    (iblk1 V c 2 t : Vec Ideal S128 .f32) (ix1 q) = (V c main_v29 : S128.Idx → EReal) (ix1 q) := by
  obtain ⟨-, -, -, -, e4, -⟩ := idx_facts t
  unfold iblk1
  rw [View.read_apply]
  show V c main_v29 _ = V c main_v29 _
  refine congrArg (V c main_v29) ?_
  funext a; apply Fin.ext
  match a with
  | ⟨0, _⟩ => show win1_2.index t (0 : Fin 1) * 128 + 1 * q.val = q.val; rw [e4]; omega

/-- What point t writes back is its block of the dense layer of the arrays as the call finds them. -/
theorem flushed_eq (c : Dev nD) (t : Fin cfg1.N) :
    (dat1 V c).flushed 3 t
      = ((cfg1.win 3).blk t).view.read (Elt Ideal) (Spec.dense (V c main_arg0) (V c main_arg2) (V c main_v29)) := by
  show (cfg1.win 3).cut (grid1.coords t) ((dat1 V c).after 3 t) = _
  rw [after1_3, out_eq]
  funext y
  obtain ⟨p, q, rfl⟩ : ∃ (p : Fin 2000) (q : Fin 128), y = ix2 p q := ⟨y 0, y 1, eq_ix2 y⟩
  have hN : cfg1.N = 25 := N_1
  have ht := t.isLt
  have hp := p.isLt
  obtain ⟨-, -, -, -, -, e5, e6⟩ := idx_facts t
  have hemb : ((cfg1.win 3).blk t).view.emb (ix2 p q) = ix2 (⟨t.val * 2000 + p.val, by omega⟩ : Fin 50000) q := by
    funext a; apply Fin.ext
    match a with
    | ⟨0, _⟩ => show win1_3.index t (0 : Fin 2) * 2000 + 1 * p.val = t.val * 2000 + p.val; rw [e5]; omega
    | ⟨1, _⟩ => show win1_3.index t (1 : Fin 2) * 128 + 1 * q.val = q.val; rw [e6]; omega
  show k1_pay1 (iblk1 V c 0 t) (iblk1 V c 1 t) (iblk1 V c 2 t) (ix2 p q)
    = Spec.dense (V c main_arg0) (V c main_arg2) (V c main_v29) (((cfg1.win 3).blk t).view.emb (ix2 p q))
  rw [hemb]
  refine (pay_apply (iblk1 V c 0 t) (iblk1 V c 1 t) (iblk1 V c 2 t) p q).trans ?_
  show Rows.denseAt _ _ _ p q = Rows.denseAt _ _ _ (⟨t.val * 2000 + p.val, by omega⟩ : Fin 50000) q
  unfold Rows.denseAt
  refine congr (congrArg HAdd.hAdd (Finset.sum_congr rfl fun j _ => ?_)) (read_b V c t q)
  exact congr (congrArg HMul.hMul (read_x V c t p j ⟨t.val * 2000 + p.val, by omega⟩ rfl)) (read_w V c t j q)

/-- Every row of the result lies in the block of the point that is its quotient by 2000. -/
theorem cover (i : S50000x128.Idx) : ∃ t : Fin cfg1.N, (cfg1.win 3).flush t = true ∧ i ∈ ((cfg1.win 3).blk t).view.set := by
  have hN : cfg1.N = 25 := N_1
  have hi0 : (i 0).val < 50000 := (i 0).isLt
  have hi1 : (i 1).val < 128 := (i 1).isLt
  let t : Fin cfg1.N := ⟨(i 0).val / 2000, by omega⟩
  obtain ⟨-, -, -, -, -, e5, e6⟩ := idx_facts t
  refine ⟨t, flush1_3 t, ?_⟩
  show i ∈ ((View.whole main_v31).slice (win1_3.rect t)).set
  rw [View.set_slice_whole, Rect.mem_set_unit]
  intro a
  match a with
  | ⟨0, _⟩ =>
    show win1_3.index t (0 : Fin 2) * 2000 ≤ (i 0).val ∧ (i 0).val < win1_3.index t (0 : Fin 2) * 2000 + 2000
    rw [e5]; show (i 0).val / 2000 * 2000 ≤ (i 0).val ∧ (i 0).val < (i 0).val / 2000 * 2000 + 2000; omega
  | ⟨1, _⟩ =>
    show win1_3.index t (1 : Fin 2) * 128 ≤ (i 1).val ∧ (i 1).val < win1_3.index t (1 : Fin 2) * 128 + 128
    rw [e6]; omega

/-- After the call the result array is the dense layer of the arrays as the call found them. -/
theorem value (c : Dev nD) :
    (dat1 V c).arrAt 3 cfg1.N = Spec.dense (V c main_arg0) (V c main_arg2) (V c main_v29) :=
  (dat1 V c).arrAt_eq_of_cover 3 _ (fun t _ => flushed_eq V c t) cover

end Cert.KernelIdeal.Reg1

end
-- ==== Proof.Reg2.lean ====
/-
  Pallas call 2: the epilogue of a graph convolution with a residual, 2000 rows at a time.

  Grid point t reads rows 2000·t … 2000·t + 1999 of the features H, of the aggregate A, of the one-column array D, of the residual R
  and the whole bias vector b, and writes the same rows of the result.  Entry (p, q) of the block it writes is
  max (((A + H · D) + b) + R, 0) at row 2000·t + p and column q of the whole arrays.  The 25 blocks tile the 50000 rows, so
  after the call the result array is that epilogue of the whole arrays.  Stated for any contents of the buffers at the
  call's entry.
-/
import proofs.«100985_j73658689126419_1_alg».proof.Proof.Gen.KernelIdeal.Frame
import proofs.«100985_j73658689126419_1_alg».proof.Proof.Spec
import Idealize.ShloMosaic.Lib.Pipeline.Value

noncomputable section

open scoped BigOperators

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block the body leaves is its one store's payload of the blocks it loaded (the aggregate is loaded first). -/
theorem out_eq (x0 x1 : Vec Ideal S2000x128 .f32) (x2 : Vec Ideal S2000x1 .f32) (x3 : Vec Ideal S128 .f32) (x4 : Vec Ideal S2000x128 .f32) :
    out2_5 x0 x1 x2 x3 x4 = k2_pay1 x1 x0 x2 x3 x4 := by
  unfold out2_5
  rw [View.canon_unit_zero hz2]
  simp only [View.ld_unit_zero (S := S2000x128) hz2, View.ld_unit_zero (S := S2000x1) hz2, View.ld_unit_zero (S := S128) hz1]

/-- The payload at (p, q): the epilogue's entry of the loaded blocks. -/
theorem pay_apply (a h : Vec Ideal S2000x128 .f32) (d : Vec Ideal S2000x1 .f32) (b : Vec Ideal S128 .f32) (r : Vec Ideal S2000x128 .f32)
    (p : Fin 2000) (q : Fin 128) :
    k2_pay1 a h d b r (ix2 p q) = Rows.combineResAt a h d b r (Ideal.ofBits .f32 0x00000000#32) p q := by
  unfold k2_pay1
  exact Rows.combineRes_block_apply a h r d b shapeCasts_S2000x128_S2000x128 shapeCasts_S2000x1_S2000x1
    shapeCasts_S128_S1x128 broadcasts_S2000x1_S2000x128 broadcasts_S1x128_S2000x128 0x00000000#32 p q

/-- The printed index maps over the grid: every row block moves with the point, the bias stays. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 1) = 0
    ∧ win2_4.index t (0 : Fin 2) = t.val
    ∧ win2_4.index t (1 : Fin 2) = 0
    ∧ win2_5.index t (0 : Fin 2) = t.val
    ∧ win2_5.index t (1 : Fin 2) = 0 :=
  (by decide +kernel : ∀ t : Fin grid2.N, _)

/-- Row p of the feature block at point t is row 2000·t + p of the feature array. -/
theorem read_h (c : Dev nD) (t : Fin cfg2.N) (p : Fin 2000) (q : Fin 128) (r : Fin 50000) (hr : r.val = t.val * 2000 + p.val) :
    (iblk2 V c 0 t : Vec Ideal S2000x128 .f32) (ix2 p q) = (V c main_v31 : S50000x128.Idx → EReal) (ix2 r q) := by
  have e := idx_facts t
  unfold iblk2
  rw [View.read_apply]
  show V c main_v31 _ = V c main_v31 _
  refine congrArg (V c main_v31) ?_
  funext a; apply Fin.ext
  match a with
  | ⟨0, _⟩ => show win2_0.index t (0 : Fin 2) * 2000 + 1 * p.val = r.val; rw [e.1, hr]; omega
  | ⟨1, _⟩ => show win2_0.index t (1 : Fin 2) * 128 + 1 * q.val = q.val; rw [e.2.1]; omega

/-- Row p of the aggregate block at point t is row 2000·t + p of the aggregate array. -/
theorem read_a (c : Dev nD) (t : Fin cfg2.N) (p : Fin 2000) (q : Fin 128) (r : Fin 50000) (hr : r.val = t.val * 2000 + p.val) :
    (iblk2 V c 1 t : Vec Ideal S2000x128 .f32) (ix2 p q) = (V c main_v44 : S50000x128.Idx → EReal) (ix2 r q) := by
  have e := idx_facts t
  unfold iblk2
  rw [View.read_apply]
  show V c main_v44 _ = V c main_v44 _
  refine congrArg (V c main_v44) ?_
  funext a; apply Fin.ext
  match a with
  | ⟨0, _⟩ => show win2_1.index t (0 : Fin 2) * 2000 + 1 * p.val = r.val; rw [e.2.2.1, hr]; omega
  | ⟨1, _⟩ => show win2_1.index t (1 : Fin 2) * 128 + 1 * q.val = q.val; rw [e.2.2.2.1]; omega

/-- Row p of the column block at point t is row 2000·t + p of the column array. -/
theorem read_d (c : Dev nD) (t : Fin cfg2.N) (p : Fin 2000) (r : Fin 50000) (hr : r.val = t.val * 2000 + p.val) :
    (iblk2 V c 2 t : Vec Ideal S2000x1 .f32) (ix2 p (0 : Fin 1)) = (V c main_v28 : S50000x1.Idx → EReal) (ix2 r (0 : Fin 1)) := by
  have e := idx_facts t
  unfold iblk2
  rw [View.read_apply]
  show V c main_v28 _ = V c main_v28 _
  refine congrArg (V c main_v28) ?_
  funext a; apply Fin.ext
  match a with
  | ⟨0, _⟩ => show win2_2.index t (0 : Fin 2) * 2000 + 1 * p.val = r.val; rw [e.2.2.2.2.1, hr]; omega
  | ⟨1, _⟩ => show win2_2.index t (1 : Fin 2) * 1 + 1 * 0 = 0; rw [e.2.2.2.2.2.1]

/-- The bias block at every point is the whole bias vector. -/
theorem read_b (c : Dev nD) (t : Fin cfg2.N) (q : Fin 128) :
    (iblk2 V c 3 t : Vec Ideal S128 .f32) (ix1 q) = (V c main_arg3 : S128.Idx → EReal) (ix1 q) := by
  have e := idx_facts t
  unfold iblk2
  rw [View.read_apply]
  show V c main_arg3 _ = V c main_arg3 _
  refine congrArg (V c main_arg3) ?_
  funext a; apply Fin.ext
  match a with
  | ⟨0, _⟩ => show win2_3.index t (0 : Fin 1) * 128 + 1 * q.val = q.val; rw [e.2.2.2.2.2.2.1]; omega

/-- Row p of the residual block at point t is row 2000·t + p of the residual array. -/
theorem read_r (c : Dev nD) (t : Fin cfg2.N) (p : Fin 2000) (q : Fin 128) (r : Fin 50000) (hr : r.val = t.val * 2000 + p.val) :
    (iblk2 V c 4 t : Vec Ideal S2000x128 .f32) (ix2 p q) = (V c main_v30 : S50000x128.Idx → EReal) (ix2 r q) := by
  have e := idx_facts t
  unfold iblk2
  rw [View.read_apply]
  show V c main_v30 _ = V c main_v30 _
  refine congrArg (V c main_v30) ?_
  funext a; apply Fin.ext
  match a with
  | ⟨0, _⟩ => show win2_4.index t (0 : Fin 2) * 2000 + 1 * p.val = r.val; rw [e.2.2.2.2.2.2.2.1, hr]; omega
  | ⟨1, _⟩ => show win2_4.index t (1 : Fin 2) * 128 + 1 * q.val = q.val; rw [e.2.2.2.2.2.2.2.2.1]; omega

/-- What point t writes back is its block of the epilogue of the arrays as the call finds them. -/
theorem flushed_eq (c : Dev nD) (t : Fin cfg2.N) :
    (dat2 V c).flushed 5 t = ((cfg2.win 5).blk t).view.read (Elt Ideal) (Spec.combineRes (V c main_v44) (V c main_v31) (V c main_v28) (V c main_arg3) (V c main_v30)) := by
  show (cfg2.win 5).cut (grid2.coords t) ((dat2 V c).after 5 t) = _
  rw [after2_5, out_eq]
  funext y
  obtain ⟨p, q, rfl⟩ : ∃ (p : Fin 2000) (q : Fin 128), y = ix2 p q := ⟨y 0, y 1, eq_ix2 y⟩
  have hN : cfg2.N = 25 := N_2
  have ht := t.isLt
  have hp := p.isLt
  have e := idx_facts t
  have hemb : ((cfg2.win 5).blk t).view.emb (ix2 p q) = ix2 (⟨t.val * 2000 + p.val, by omega⟩ : Fin 50000) q := by
    funext a; apply Fin.ext
    match a with
    | ⟨0, _⟩ => show win2_5.index t (0 : Fin 2) * 2000 + 1 * p.val = t.val * 2000 + p.val; rw [e.2.2.2.2.2.2.2.2.2.1]; omega
    | ⟨1, _⟩ => show win2_5.index t (1 : Fin 2) * 128 + 1 * q.val = q.val; rw [e.2.2.2.2.2.2.2.2.2.2]; omega
  show k2_pay1 (iblk2 V c 1 t) (iblk2 V c 0 t) (iblk2 V c 2 t) (iblk2 V c 3 t) (iblk2 V c 4 t) (ix2 p q)
    = (Spec.combineRes (V c main_v44) (V c main_v31) (V c main_v28) (V c main_arg3) (V c main_v30)) (((cfg2.win 5).blk t).view.emb (ix2 p q))
  rw [hemb]
  refine (pay_apply (iblk2 V c 1 t) (iblk2 V c 0 t) (iblk2 V c 2 t) (iblk2 V c 3 t) (iblk2 V c 4 t) p q).trans ?_
  show Rows.combineResAt _ _ _ _ _ _ p q = Rows.combineResAt _ _ _ _ _ _ (⟨t.val * 2000 + p.val, by omega⟩ : Fin 50000) q
  unfold Rows.combineResAt
  rw [read_a V c t p q ⟨t.val * 2000 + p.val, by omega⟩ rfl, read_h V c t p q ⟨t.val * 2000 + p.val, by omega⟩ rfl,
    read_d V c t p ⟨t.val * 2000 + p.val, by omega⟩ rfl, read_b V c t q, read_r V c t p q ⟨t.val * 2000 + p.val, by omega⟩ rfl]

/-- Every row of the result lies in the block of the point that is its quotient by 2000. -/
theorem cover (i : S50000x128.Idx) : ∃ t : Fin cfg2.N, (cfg2.win 5).flush t = true ∧ i ∈ ((cfg2.win 5).blk t).view.set := by
  have hN : cfg2.N = 25 := N_2
  have hi0 : (i 0).val < 50000 := (i 0).isLt
  have hi1 : (i 1).val < 128 := (i 1).isLt
  let t : Fin cfg2.N := ⟨(i 0).val / 2000, by omega⟩
  have e := idx_facts t
  refine ⟨t, flush2_5 t, ?_⟩
  show i ∈ ((View.whole main_v45).slice (win2_5.rect t)).set
  rw [View.set_slice_whole, Rect.mem_set_unit]
  intro a
  match a with
  | ⟨0, _⟩ =>
    show win2_5.index t (0 : Fin 2) * 2000 ≤ (i 0).val ∧ (i 0).val < win2_5.index t (0 : Fin 2) * 2000 + 2000
    rw [e.2.2.2.2.2.2.2.2.2.1]; show (i 0).val / 2000 * 2000 ≤ (i 0).val ∧ (i 0).val < (i 0).val / 2000 * 2000 + 2000; omega
  | ⟨1, _⟩ =>
    show win2_5.index t (1 : Fin 2) * 128 ≤ (i 1).val ∧ (i 1).val < win2_5.index t (1 : Fin 2) * 128 + 128
    rw [e.2.2.2.2.2.2.2.2.2.2]; omega

/-- After the call the result array is the epilogue of the arrays as the call found them. -/
theorem value (c : Dev nD) : (dat2 V c).arrAt 5 cfg2.N = Spec.combineRes (V c main_v44) (V c main_v31) (V c main_v28) (V c main_arg3) (V c main_v30) :=
  (dat2 V c).arrAt_eq_of_cover 5 _ (fun t _ => flushed_eq V c t) cover

end Cert.KernelIdeal.Reg2

end
-- ==== Proof.Reg3.lean ====
/-
  Pallas call 3: a dense layer, 2000 rows at a time.

  Grid point t reads rows 2000·t … 2000·t + 1999 of the node features, all of the weights and the whole bias vector,
  and writes rows 2000·t … 2000·t + 1999 of the result.  Entry (p, q) of the block it writes is
  Σ_k X(2000·t + p, k) · W(k, q) + b(q): the entry (2000·t + p, q) of the dense layer of the whole arrays.  The 25
  blocks tile the 50000 rows, so after the call the result array is that dense layer.  Stated for any contents of the
  buffers at the call's entry.
-/
import proofs.«100985_j73658689126419_1_alg».proof.Proof.Gen.KernelIdeal.Frame
import proofs.«100985_j73658689126419_1_alg».proof.Proof.Spec
import Idealize.ShloMosaic.Lib.Pipeline.Value

noncomputable section

open scoped BigOperators

namespace Cert.KernelIdeal.Reg3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block the body leaves is its one store's payload of the three blocks it loaded. -/
theorem out_eq (x0 : Vec Ideal S2000x128 .f32) (x1 : Vec Ideal S128x128 .f32) (x2 : Vec Ideal S128 .f32) :
    out3_3 x0 x1 x2 = k3_pay1 x0 x1 x2 := by
  unfold out3_3
  rw [View.canon_unit_zero hz2]
  simp only [View.ld_unit_zero (S := S2000x128) hz2, View.ld_unit_zero (S := S128x128) hz2, View.ld_unit_zero (S := S128) hz1]

/-- The payload at (p, q): the dense layer's entry of the loaded blocks (the format changes are the identity). -/
theorem pay_apply (x0 : Vec Ideal S2000x128 .f32) (x1 : Vec Ideal S128x128 .f32) (x2 : Vec Ideal S128 .f32)
    (p : Fin 2000) (q : Fin 128) : k3_pay1 x0 x1 x2 (ix2 p q) = Rows.denseAt x0 x1 x2 p q := by
  unfold k3_pay1
  simp only [shapeCast_self]
  exact Rows.dense_block_apply none (truncf .bf16 x0 bitsLt_bf16_f32) (truncf .bf16 x1 bitsLt_bf16_f32) x2
    shapeCasts_S128_S1x128 broadcasts_S1x128_S2000x128 p q

/-- The printed index maps over the grid: the row blocks move with the point, the weights and the bias stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 1) = 0
    ∧ win3_3.index t (0 : Fin 2) = t.val ∧ win3_3.index t (1 : Fin 2) = 0 :=
  (by decide +kernel : ∀ t : Fin grid3.N, _)

/-- Row p of the feature block at point t is row 2000·t + p of the feature array. -/
theorem read_x (c : Dev nD) (t : Fin cfg3.N) (p : Fin 2000) (j : Fin 128) (r : Fin 50000) (hr : r.val = t.val * 2000 + p.val) :
    (iblk3 V c 0 t : Vec Ideal S2000x128 .f32) (ix2 p j) = (V c main_v45 : S50000x128.Idx → EReal) (ix2 r j) := by
  obtain ⟨e0, e1, -⟩ := idx_facts t
  unfold iblk3
  rw [View.read_apply]
  show V c main_v45 _ = V c main_v45 _
  refine congrArg (V c main_v45) ?_
  funext a; apply Fin.ext
  match a with
  | ⟨0, _⟩ => show win3_0.index t (0 : Fin 2) * 2000 + 1 * p.val = r.val; rw [e0, hr]; omega
  | ⟨1, _⟩ => show win3_0.index t (1 : Fin 2) * 128 + 1 * j.val = j.val; rw [e1]; omega

/-- The weight block at every point is the whole weight array. -/
theorem read_w (c : Dev nD) (t : Fin cfg3.N) (j : Fin 128) (q : Fin 128) :
    (iblk3 V c 1 t : Vec Ideal S128x128 .f32) (ix2 j q) = (V c main_arg4 : S128x128.Idx → EReal) (ix2 j q) := by
  obtain ⟨-, -, e2, e3, -⟩ := idx_facts t
  unfold iblk3
  rw [View.read_apply]
  show V c main_arg4 _ = V c main_arg4 _
  refine congrArg (V c main_arg4) ?_
  funext a; apply Fin.ext
  match a with
  | ⟨0, _⟩ => show win3_1.index t (0 : Fin 2) * 128 + 1 * j.val = j.val; rw [e2]; omega
  | ⟨1, _⟩ => show win3_1.index t (1 : Fin 2) * 128 + 1 * q.val = q.val; rw [e3]; omega

/-- The bias block at every point is the whole bias vector. -/
theorem read_b (c : Dev nD) (t : Fin cfg3.N) (q : Fin 128) :
    (iblk3 V c 2 t : Vec Ideal S128 .f32) (ix1 q) = (V c main_v29 : S128.Idx → EReal) (ix1 q) := by
  obtain ⟨-, -, -, -, e4, -⟩ := idx_facts t
  unfold iblk3
  rw [View.read_apply]
  show V c main_v29 _ = V c main_v29 _
  refine congrArg (V c main_v29) ?_
  funext a; apply Fin.ext
  match a with
  | ⟨0, _⟩ => show win3_2.index t (0 : Fin 1) * 128 + 1 * q.val = q.val; rw [e4]; omega

/-- What point t writes back is its block of the dense layer of the arrays as the call finds them. -/
theorem flushed_eq (c : Dev nD) (t : Fin cfg3.N) :
    (dat3 V c).flushed 3 t
      = ((cfg3.win 3).blk t).view.read (Elt Ideal) (Spec.dense (V c main_v45) (V c main_arg4) (V c main_v29)) := by
  show (cfg3.win 3).cut (grid3.coords t) ((dat3 V c).after 3 t) = _
  rw [after3_3, out_eq]
  funext y
  obtain ⟨p, q, rfl⟩ : ∃ (p : Fin 2000) (q : Fin 128), y = ix2 p q := ⟨y 0, y 1, eq_ix2 y⟩
  have hN : cfg3.N = 25 := N_3
  have ht := t.isLt
  have hp := p.isLt
  obtain ⟨-, -, -, -, -, e5, e6⟩ := idx_facts t
  have hemb : ((cfg3.win 3).blk t).view.emb (ix2 p q) = ix2 (⟨t.val * 2000 + p.val, by omega⟩ : Fin 50000) q := by
    funext a; apply Fin.ext
    match a with
    | ⟨0, _⟩ => show win3_3.index t (0 : Fin 2) * 2000 + 1 * p.val = t.val * 2000 + p.val; rw [e5]; omega
    | ⟨1, _⟩ => show win3_3.index t (1 : Fin 2) * 128 + 1 * q.val = q.val; rw [e6]; omega
  show k3_pay1 (iblk3 V c 0 t) (iblk3 V c 1 t) (iblk3 V c 2 t) (ix2 p q)
    = Spec.dense (V c main_v45) (V c main_arg4) (V c main_v29) (((cfg3.win 3).blk t).view.emb (ix2 p q))
  rw [hemb]
  refine (pay_apply (iblk3 V c 0 t) (iblk3 V c 1 t) (iblk3 V c 2 t) p q).trans ?_
  show Rows.denseAt _ _ _ p q = Rows.denseAt _ _ _ (⟨t.val * 2000 + p.val, by omega⟩ : Fin 50000) q
  unfold Rows.denseAt
  refine congr (congrArg HAdd.hAdd (Finset.sum_congr rfl fun j _ => ?_)) (read_b V c t q)
  exact congr (congrArg HMul.hMul (read_x V c t p j ⟨t.val * 2000 + p.val, by omega⟩ rfl)) (read_w V c t j q)

/-- Every row of the result lies in the block of the point that is its quotient by 2000. -/
theorem cover (i : S50000x128.Idx) : ∃ t : Fin cfg3.N, (cfg3.win 3).flush t = true ∧ i ∈ ((cfg3.win 3).blk t).view.set := by
  have hN : cfg3.N = 25 := N_3
  have hi0 : (i 0).val < 50000 := (i 0).isLt
  have hi1 : (i 1).val < 128 := (i 1).isLt
  let t : Fin cfg3.N := ⟨(i 0).val / 2000, by omega⟩
  obtain ⟨-, -, -, -, -, e5, e6⟩ := idx_facts t
  refine ⟨t, flush3_3 t, ?_⟩
  show i ∈ ((View.whole main_v46).slice (win3_3.rect t)).set
  rw [View.set_slice_whole, Rect.mem_set_unit]
  intro a
  match a with
  | ⟨0, _⟩ =>
    show win3_3.index t (0 : Fin 2) * 2000 ≤ (i 0).val ∧ (i 0).val < win3_3.index t (0 : Fin 2) * 2000 + 2000
    rw [e5]; show (i 0).val / 2000 * 2000 ≤ (i 0).val ∧ (i 0).val < (i 0).val / 2000 * 2000 + 2000; omega
  | ⟨1, _⟩ =>
    show win3_3.index t (1 : Fin 2) * 128 ≤ (i 1).val ∧ (i 1).val < win3_3.index t (1 : Fin 2) * 128 + 128
    rw [e6]; omega

/-- After the call the result array is the dense layer of the arrays as the call found them. -/
theorem value (c : Dev nD) :
    (dat3 V c).arrAt 3 cfg3.N = Spec.dense (V c main_v45) (V c main_arg4) (V c main_v29) :=
  (dat3 V c).arrAt_eq_of_cover 3 _ (fun t _ => flushed_eq V c t) cover

end Cert.KernelIdeal.Reg3

end
-- ==== Proof.Reg4.lean ====
/-
  Pallas call 4: the epilogue of a graph convolution, 2000 rows at a time.

  Grid point t reads rows 2000·t … 2000·t + 1999 of the features H, of the aggregate A, of the one-column array D
  and the whole bias vector b, and writes the same rows of the result.  Entry (p, q) of the block it writes is
  max (((A + H · D) + b), 0) at row 2000·t + p and column q of the whole arrays.  The 25 blocks tile the 50000 rows, so
  after the call the result array is that epilogue of the whole arrays.  Stated for any contents of the buffers at the
  call's entry.
-/
import proofs.«100985_j73658689126419_1_alg».proof.Proof.Gen.KernelIdeal.Frame
import proofs.«100985_j73658689126419_1_alg».proof.Proof.Spec
import Idealize.ShloMosaic.Lib.Pipeline.Value

noncomputable section

open scoped BigOperators

namespace Cert.KernelIdeal.Reg4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block the body leaves is its one store's payload of the blocks it loaded (the aggregate is loaded first). -/
theorem out_eq (x0 x1 : Vec Ideal S2000x128 .f32) (x2 : Vec Ideal S2000x1 .f32) (x3 : Vec Ideal S128 .f32) :
    out4_4 x0 x1 x2 x3 = k4_pay1 x1 x0 x2 x3 := by
  unfold out4_4
  rw [View.canon_unit_zero hz2]
  simp only [View.ld_unit_zero (S := S2000x128) hz2, View.ld_unit_zero (S := S2000x1) hz2, View.ld_unit_zero (S := S128) hz1]

/-- The payload at (p, q): the epilogue's entry of the loaded blocks. -/
theorem pay_apply (a h : Vec Ideal S2000x128 .f32) (d : Vec Ideal S2000x1 .f32) (b : Vec Ideal S128 .f32)
    (p : Fin 2000) (q : Fin 128) :
    k4_pay1 a h d b (ix2 p q) = Rows.combineAt a h d b (Ideal.ofBits .f32 0x00000000#32) p q := by
  unfold k4_pay1
  exact Rows.combine_block_apply a h d b shapeCasts_S2000x128_S2000x128 shapeCasts_S2000x1_S2000x1
    shapeCasts_S128_S1x128 broadcasts_S2000x1_S2000x128 broadcasts_S1x128_S2000x128 0x00000000#32 p q

/-- The printed index maps over the grid: every row block moves with the point, the bias stays. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 1) = 0
    ∧ win4_4.index t (0 : Fin 2) = t.val
    ∧ win4_4.index t (1 : Fin 2) = 0 :=
  (by decide +kernel : ∀ t : Fin grid4.N, _)

/-- Row p of the feature block at point t is row 2000·t + p of the feature array. -/
theorem read_h (c : Dev nD) (t : Fin cfg4.N) (p : Fin 2000) (q : Fin 128) (r : Fin 50000) (hr : r.val = t.val * 2000 + p.val) :
    (iblk4 V c 0 t : Vec Ideal S2000x128 .f32) (ix2 p q) = (V c main_v46 : S50000x128.Idx → EReal) (ix2 r q) := by
  have e := idx_facts t
  unfold iblk4
  rw [View.read_apply]
  show V c main_v46 _ = V c main_v46 _
  refine congrArg (V c main_v46) ?_
  funext a; apply Fin.ext
  match a with
  | ⟨0, _⟩ => show win4_0.index t (0 : Fin 2) * 2000 + 1 * p.val = r.val; rw [e.1, hr]; omega
  | ⟨1, _⟩ => show win4_0.index t (1 : Fin 2) * 128 + 1 * q.val = q.val; rw [e.2.1]; omega

/-- Row p of the aggregate block at point t is row 2000·t + p of the aggregate array. -/
theorem read_a (c : Dev nD) (t : Fin cfg4.N) (p : Fin 2000) (q : Fin 128) (r : Fin 50000) (hr : r.val = t.val * 2000 + p.val) :
    (iblk4 V c 1 t : Vec Ideal S2000x128 .f32) (ix2 p q) = (V c main_v59 : S50000x128.Idx → EReal) (ix2 r q) := by
  have e := idx_facts t
  unfold iblk4
  rw [View.read_apply]
  show V c main_v59 _ = V c main_v59 _
  refine congrArg (V c main_v59) ?_
  funext a; apply Fin.ext
  match a with
  | ⟨0, _⟩ => show win4_1.index t (0 : Fin 2) * 2000 + 1 * p.val = r.val; rw [e.2.2.1, hr]; omega
  | ⟨1, _⟩ => show win4_1.index t (1 : Fin 2) * 128 + 1 * q.val = q.val; rw [e.2.2.2.1]; omega

/-- Row p of the column block at point t is row 2000·t + p of the column array. -/
theorem read_d (c : Dev nD) (t : Fin cfg4.N) (p : Fin 2000) (r : Fin 50000) (hr : r.val = t.val * 2000 + p.val) :
    (iblk4 V c 2 t : Vec Ideal S2000x1 .f32) (ix2 p (0 : Fin 1)) = (V c main_v28 : S50000x1.Idx → EReal) (ix2 r (0 : Fin 1)) := by
  have e := idx_facts t
  unfold iblk4
  rw [View.read_apply]
  show V c main_v28 _ = V c main_v28 _
  refine congrArg (V c main_v28) ?_
  funext a; apply Fin.ext
  match a with
  | ⟨0, _⟩ => show win4_2.index t (0 : Fin 2) * 2000 + 1 * p.val = r.val; rw [e.2.2.2.2.1, hr]; omega
  | ⟨1, _⟩ => show win4_2.index t (1 : Fin 2) * 1 + 1 * 0 = 0; rw [e.2.2.2.2.2.1]

/-- The bias block at every point is the whole bias vector. -/
theorem read_b (c : Dev nD) (t : Fin cfg4.N) (q : Fin 128) :
    (iblk4 V c 3 t : Vec Ideal S128 .f32) (ix1 q) = (V c main_arg5 : S128.Idx → EReal) (ix1 q) := by
  have e := idx_facts t
  unfold iblk4
  rw [View.read_apply]
  show V c main_arg5 _ = V c main_arg5 _
  refine congrArg (V c main_arg5) ?_
  funext a; apply Fin.ext
  match a with
  | ⟨0, _⟩ => show win4_3.index t (0 : Fin 1) * 128 + 1 * q.val = q.val; rw [e.2.2.2.2.2.2.1]; omega

/-- What point t writes back is its block of the epilogue of the arrays as the call finds them. -/
theorem flushed_eq (c : Dev nD) (t : Fin cfg4.N) :
    (dat4 V c).flushed 4 t = ((cfg4.win 4).blk t).view.read (Elt Ideal) (Spec.combine (V c main_v59) (V c main_v46) (V c main_v28) (V c main_arg5)) := by
  show (cfg4.win 4).cut (grid4.coords t) ((dat4 V c).after 4 t) = _
  rw [after4_4, out_eq]
  funext y
  obtain ⟨p, q, rfl⟩ : ∃ (p : Fin 2000) (q : Fin 128), y = ix2 p q := ⟨y 0, y 1, eq_ix2 y⟩
  have hN : cfg4.N = 25 := N_4
  have ht := t.isLt
  have hp := p.isLt
  have e := idx_facts t
  have hemb : ((cfg4.win 4).blk t).view.emb (ix2 p q) = ix2 (⟨t.val * 2000 + p.val, by omega⟩ : Fin 50000) q := by
    funext a; apply Fin.ext
    match a with
    | ⟨0, _⟩ => show win4_4.index t (0 : Fin 2) * 2000 + 1 * p.val = t.val * 2000 + p.val; rw [e.2.2.2.2.2.2.2.1]; omega
    | ⟨1, _⟩ => show win4_4.index t (1 : Fin 2) * 128 + 1 * q.val = q.val; rw [e.2.2.2.2.2.2.2.2]; omega
  show k4_pay1 (iblk4 V c 1 t) (iblk4 V c 0 t) (iblk4 V c 2 t) (iblk4 V c 3 t) (ix2 p q)
    = (Spec.combine (V c main_v59) (V c main_v46) (V c main_v28) (V c main_arg5)) (((cfg4.win 4).blk t).view.emb (ix2 p q))
  rw [hemb]
  refine (pay_apply (iblk4 V c 1 t) (iblk4 V c 0 t) (iblk4 V c 2 t) (iblk4 V c 3 t) p q).trans ?_
  show Rows.combineAt _ _ _ _ _ p q = Rows.combineAt _ _ _ _ _ (⟨t.val * 2000 + p.val, by omega⟩ : Fin 50000) q
  unfold Rows.combineAt
  rw [read_a V c t p q ⟨t.val * 2000 + p.val, by omega⟩ rfl, read_h V c t p q ⟨t.val * 2000 + p.val, by omega⟩ rfl,
    read_d V c t p ⟨t.val * 2000 + p.val, by omega⟩ rfl, read_b V c t q]

/-- Every row of the result lies in the block of the point that is its quotient by 2000. -/
theorem cover (i : S50000x128.Idx) : ∃ t : Fin cfg4.N, (cfg4.win 4).flush t = true ∧ i ∈ ((cfg4.win 4).blk t).view.set := by
  have hN : cfg4.N = 25 := N_4
  have hi0 : (i 0).val < 50000 := (i 0).isLt
  have hi1 : (i 1).val < 128 := (i 1).isLt
  let t : Fin cfg4.N := ⟨(i 0).val / 2000, by omega⟩
  have e := idx_facts t
  refine ⟨t, flush4_4 t, ?_⟩
  show i ∈ ((View.whole main_v60).slice (win4_4.rect t)).set
  rw [View.set_slice_whole, Rect.mem_set_unit]
  intro a
  match a with
  | ⟨0, _⟩ =>
    show win4_4.index t (0 : Fin 2) * 2000 ≤ (i 0).val ∧ (i 0).val < win4_4.index t (0 : Fin 2) * 2000 + 2000
    rw [e.2.2.2.2.2.2.2.1]; show (i 0).val / 2000 * 2000 ≤ (i 0).val ∧ (i 0).val < (i 0).val / 2000 * 2000 + 2000; omega
  | ⟨1, _⟩ =>
    show win4_4.index t (1 : Fin 2) * 128 ≤ (i 1).val ∧ (i 1).val < win4_4.index t (1 : Fin 2) * 128 + 128
    rw [e.2.2.2.2.2.2.2.2]; omega

/-- After the call the result array is the epilogue of the arrays as the call found them. -/
theorem value (c : Dev nD) : (dat4 V c).arrAt 4 cfg4.N = Spec.combine (V c main_v59) (V c main_v46) (V c main_v28) (V c main_arg5) :=
  (dat4 V c).arrAt_eq_of_cover 4 _ (fun t _ => flushed_eq V c t) cover

end Cert.KernelIdeal.Reg4

end
-- ==== Proof.Reg5.lean ====
/-
  Pallas call 5: a dense layer, 2000 rows at a time.

  Grid point t reads rows 2000·t … 2000·t + 1999 of the node features, all of the weights and the whole bias vector,
  and writes rows 2000·t … 2000·t + 1999 of the result.  Entry (p, q) of the block it writes is
  Σ_k X(2000·t + p, k) · W(k, q) + b(q): the entry (2000·t + p, q) of the dense layer of the whole arrays.  The 25
  blocks tile the 50000 rows, so after the call the result array is that dense layer.  Stated for any contents of the
  buffers at the call's entry.
-/
import proofs.«100985_j73658689126419_1_alg».proof.Proof.Gen.KernelIdeal.Frame
import proofs.«100985_j73658689126419_1_alg».proof.Proof.Spec
import Idealize.ShloMosaic.Lib.Pipeline.Value

noncomputable section

open scoped BigOperators

namespace Cert.KernelIdeal.Reg5

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block the body leaves is its one store's payload of the three blocks it loaded. -/
theorem out_eq (x0 : Vec Ideal S2000x128 .f32) (x1 : Vec Ideal S128x128 .f32) (x2 : Vec Ideal S128 .f32) :
    out5_3 x0 x1 x2 = k5_pay1 x0 x1 x2 := by
  unfold out5_3
  rw [View.canon_unit_zero hz2]
  simp only [View.ld_unit_zero (S := S2000x128) hz2, View.ld_unit_zero (S := S128x128) hz2, View.ld_unit_zero (S := S128) hz1]

/-- The payload at (p, q): the dense layer's entry of the loaded blocks (the format changes are the identity). -/
theorem pay_apply (x0 : Vec Ideal S2000x128 .f32) (x1 : Vec Ideal S128x128 .f32) (x2 : Vec Ideal S128 .f32)
    (p : Fin 2000) (q : Fin 128) : k5_pay1 x0 x1 x2 (ix2 p q) = Rows.denseAt x0 x1 x2 p q := by
  unfold k5_pay1
  simp only [shapeCast_self]
  exact Rows.dense_block_apply none (truncf .bf16 x0 bitsLt_bf16_f32) (truncf .bf16 x1 bitsLt_bf16_f32) x2
    shapeCasts_S128_S1x128 broadcasts_S1x128_S2000x128 p q

/-- The printed index maps over the grid: the row blocks move with the point, the weights and the bias stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0 ∧ win5_2.index t (0 : Fin 1) = 0
    ∧ win5_3.index t (0 : Fin 2) = t.val ∧ win5_3.index t (1 : Fin 2) = 0 :=
  (by decide +kernel : ∀ t : Fin grid5.N, _)

/-- Row p of the feature block at point t is row 2000·t + p of the feature array. -/
theorem read_x (c : Dev nD) (t : Fin cfg5.N) (p : Fin 2000) (j : Fin 128) (r : Fin 50000) (hr : r.val = t.val * 2000 + p.val) :
    (iblk5 V c 0 t : Vec Ideal S2000x128 .f32) (ix2 p j) = (V c main_v60 : S50000x128.Idx → EReal) (ix2 r j) := by
  obtain ⟨e0, e1, -⟩ := idx_facts t
  unfold iblk5
  rw [View.read_apply]
  show V c main_v60 _ = V c main_v60 _
  refine congrArg (V c main_v60) ?_
  funext a; apply Fin.ext
  match a with
  | ⟨0, _⟩ => show win5_0.index t (0 : Fin 2) * 2000 + 1 * p.val = r.val; rw [e0, hr]; omega
  | ⟨1, _⟩ => show win5_0.index t (1 : Fin 2) * 128 + 1 * j.val = j.val; rw [e1]; omega

/-- The weight block at every point is the whole weight array. -/
theorem read_w (c : Dev nD) (t : Fin cfg5.N) (j : Fin 128) (q : Fin 128) :
    (iblk5 V c 1 t : Vec Ideal S128x128 .f32) (ix2 j q) = (V c main_arg6 : S128x128.Idx → EReal) (ix2 j q) := by
  obtain ⟨-, -, e2, e3, -⟩ := idx_facts t
  unfold iblk5
  rw [View.read_apply]
  show V c main_arg6 _ = V c main_arg6 _
  refine congrArg (V c main_arg6) ?_
  funext a; apply Fin.ext
  match a with
  | ⟨0, _⟩ => show win5_1.index t (0 : Fin 2) * 128 + 1 * j.val = j.val; rw [e2]; omega
  | ⟨1, _⟩ => show win5_1.index t (1 : Fin 2) * 128 + 1 * q.val = q.val; rw [e3]; omega

/-- The bias block at every point is the whole bias vector. -/
theorem read_b (c : Dev nD) (t : Fin cfg5.N) (q : Fin 128) :
    (iblk5 V c 2 t : Vec Ideal S128 .f32) (ix1 q) = (V c main_v29 : S128.Idx → EReal) (ix1 q) := by
  obtain ⟨-, -, -, -, e4, -⟩ := idx_facts t
  unfold iblk5
  rw [View.read_apply]
  show V c main_v29 _ = V c main_v29 _
  refine congrArg (V c main_v29) ?_
  funext a; apply Fin.ext
  match a with
  | ⟨0, _⟩ => show win5_2.index t (0 : Fin 1) * 128 + 1 * q.val = q.val; rw [e4]; omega

/-- What point t writes back is its block of the dense layer of the arrays as the call finds them. -/
theorem flushed_eq (c : Dev nD) (t : Fin cfg5.N) :
    (dat5 V c).flushed 3 t
      = ((cfg5.win 3).blk t).view.read (Elt Ideal) (Spec.dense (V c main_v60) (V c main_arg6) (V c main_v29)) := by
  show (cfg5.win 3).cut (grid5.coords t) ((dat5 V c).after 3 t) = _
  rw [after5_3, out_eq]
  funext y
  obtain ⟨p, q, rfl⟩ : ∃ (p : Fin 2000) (q : Fin 128), y = ix2 p q := ⟨y 0, y 1, eq_ix2 y⟩
  have hN : cfg5.N = 25 := N_5
  have ht := t.isLt
  have hp := p.isLt
  obtain ⟨-, -, -, -, -, e5, e6⟩ := idx_facts t
  have hemb : ((cfg5.win 3).blk t).view.emb (ix2 p q) = ix2 (⟨t.val * 2000 + p.val, by omega⟩ : Fin 50000) q := by
    funext a; apply Fin.ext
    match a with
    | ⟨0, _⟩ => show win5_3.index t (0 : Fin 2) * 2000 + 1 * p.val = t.val * 2000 + p.val; rw [e5]; omega
    | ⟨1, _⟩ => show win5_3.index t (1 : Fin 2) * 128 + 1 * q.val = q.val; rw [e6]; omega
  show k5_pay1 (iblk5 V c 0 t) (iblk5 V c 1 t) (iblk5 V c 2 t) (ix2 p q)
    = Spec.dense (V c main_v60) (V c main_arg6) (V c main_v29) (((cfg5.win 3).blk t).view.emb (ix2 p q))
  rw [hemb]
  refine (pay_apply (iblk5 V c 0 t) (iblk5 V c 1 t) (iblk5 V c 2 t) p q).trans ?_
  show Rows.denseAt _ _ _ p q = Rows.denseAt _ _ _ (⟨t.val * 2000 + p.val, by omega⟩ : Fin 50000) q
  unfold Rows.denseAt
  refine congr (congrArg HAdd.hAdd (Finset.sum_congr rfl fun j _ => ?_)) (read_b V c t q)
  exact congr (congrArg HMul.hMul (read_x V c t p j ⟨t.val * 2000 + p.val, by omega⟩ rfl)) (read_w V c t j q)

/-- Every row of the result lies in the block of the point that is its quotient by 2000. -/
theorem cover (i : S50000x128.Idx) : ∃ t : Fin cfg5.N, (cfg5.win 3).flush t = true ∧ i ∈ ((cfg5.win 3).blk t).view.set := by
  have hN : cfg5.N = 25 := N_5
  have hi0 : (i 0).val < 50000 := (i 0).isLt
  have hi1 : (i 1).val < 128 := (i 1).isLt
  let t : Fin cfg5.N := ⟨(i 0).val / 2000, by omega⟩
  obtain ⟨-, -, -, -, -, e5, e6⟩ := idx_facts t
  refine ⟨t, flush5_3 t, ?_⟩
  show i ∈ ((View.whole main_v61).slice (win5_3.rect t)).set
  rw [View.set_slice_whole, Rect.mem_set_unit]
  intro a
  match a with
  | ⟨0, _⟩ =>
    show win5_3.index t (0 : Fin 2) * 2000 ≤ (i 0).val ∧ (i 0).val < win5_3.index t (0 : Fin 2) * 2000 + 2000
    rw [e5]; show (i 0).val / 2000 * 2000 ≤ (i 0).val ∧ (i 0).val < (i 0).val / 2000 * 2000 + 2000; omega
  | ⟨1, _⟩ =>
    show win5_3.index t (1 : Fin 2) * 128 ≤ (i 1).val ∧ (i 1).val < win5_3.index t (1 : Fin 2) * 128 + 128
    rw [e6]; omega

/-- After the call the result array is the dense layer of the arrays as the call found them. -/
theorem value (c : Dev nD) :
    (dat5 V c).arrAt 3 cfg5.N = Spec.dense (V c main_v60) (V c main_arg6) (V c main_v29) :=
  (dat5 V c).arrAt_eq_of_cover 3 _ (fun t _ => flushed_eq V c t) cover

end Cert.KernelIdeal.Reg5

end
-- ==== Proof.Reg6.lean ====
/-
  Pallas call 6: the epilogue of a graph convolution, 2000 rows at a time.

  Grid point t reads rows 2000·t … 2000·t + 1999 of the features H, of the aggregate A, of the one-column array D
  and the whole bias vector b, and writes the same rows of the result.  Entry (p, q) of the block it writes is
  max (((A + H · D) + b), 0) at row 2000·t + p and column q of the whole arrays.  The 25 blocks tile the 50000 rows, so
  after the call the result array is that epilogue of the whole arrays.  Stated for any contents of the buffers at the
  call's entry.
-/
import proofs.«100985_j73658689126419_1_alg».proof.Proof.Gen.KernelIdeal.Frame
import proofs.«100985_j73658689126419_1_alg».proof.Proof.Spec
import Idealize.ShloMosaic.Lib.Pipeline.Value

noncomputable section

open scoped BigOperators

namespace Cert.KernelIdeal.Reg6

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block the body leaves is its one store's payload of the blocks it loaded (the aggregate is loaded first). -/
theorem out_eq (x0 x1 : Vec Ideal S2000x128 .f32) (x2 : Vec Ideal S2000x1 .f32) (x3 : Vec Ideal S128 .f32) :
    out6_4 x0 x1 x2 x3 = k6_pay1 x1 x0 x2 x3 := by
  unfold out6_4
  rw [View.canon_unit_zero hz2]
  simp only [View.ld_unit_zero (S := S2000x128) hz2, View.ld_unit_zero (S := S2000x1) hz2, View.ld_unit_zero (S := S128) hz1]

/-- The payload at (p, q): the epilogue's entry of the loaded blocks. -/
theorem pay_apply (a h : Vec Ideal S2000x128 .f32) (d : Vec Ideal S2000x1 .f32) (b : Vec Ideal S128 .f32)
    (p : Fin 2000) (q : Fin 128) :
    k6_pay1 a h d b (ix2 p q) = Rows.combineAt a h d b (Ideal.ofBits .f32 0x00000000#32) p q := by
  unfold k6_pay1
  exact Rows.combine_block_apply a h d b shapeCasts_S2000x128_S2000x128 shapeCasts_S2000x1_S2000x1
    shapeCasts_S128_S1x128 broadcasts_S2000x1_S2000x128 broadcasts_S1x128_S2000x128 0x00000000#32 p q

/-- The printed index maps over the grid: every row block moves with the point, the bias stays. -/
theorem idx_facts : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 1) = 0
    ∧ win6_4.index t (0 : Fin 2) = t.val
    ∧ win6_4.index t (1 : Fin 2) = 0 :=
  (by decide +kernel : ∀ t : Fin grid6.N, _)

/-- Row p of the feature block at point t is row 2000·t + p of the feature array. -/
theorem read_h (c : Dev nD) (t : Fin cfg6.N) (p : Fin 2000) (q : Fin 128) (r : Fin 50000) (hr : r.val = t.val * 2000 + p.val) :
    (iblk6 V c 0 t : Vec Ideal S2000x128 .f32) (ix2 p q) = (V c main_v61 : S50000x128.Idx → EReal) (ix2 r q) := by
  have e := idx_facts t
  unfold iblk6
  rw [View.read_apply]
  show V c main_v61 _ = V c main_v61 _
  refine congrArg (V c main_v61) ?_
  funext a; apply Fin.ext
  match a with
  | ⟨0, _⟩ => show win6_0.index t (0 : Fin 2) * 2000 + 1 * p.val = r.val; rw [e.1, hr]; omega
  | ⟨1, _⟩ => show win6_0.index t (1 : Fin 2) * 128 + 1 * q.val = q.val; rw [e.2.1]; omega

/-- Row p of the aggregate block at point t is row 2000·t + p of the aggregate array. -/
theorem read_a (c : Dev nD) (t : Fin cfg6.N) (p : Fin 2000) (q : Fin 128) (r : Fin 50000) (hr : r.val = t.val * 2000 + p.val) :
    (iblk6 V c 1 t : Vec Ideal S2000x128 .f32) (ix2 p q) = (V c main_v74 : S50000x128.Idx → EReal) (ix2 r q) := by
  have e := idx_facts t
  unfold iblk6
  rw [View.read_apply]
  show V c main_v74 _ = V c main_v74 _
  refine congrArg (V c main_v74) ?_
  funext a; apply Fin.ext
  match a with
  | ⟨0, _⟩ => show win6_1.index t (0 : Fin 2) * 2000 + 1 * p.val = r.val; rw [e.2.2.1, hr]; omega
  | ⟨1, _⟩ => show win6_1.index t (1 : Fin 2) * 128 + 1 * q.val = q.val; rw [e.2.2.2.1]; omega

/-- Row p of the column block at point t is row 2000·t + p of the column array. -/
theorem read_d (c : Dev nD) (t : Fin cfg6.N) (p : Fin 2000) (r : Fin 50000) (hr : r.val = t.val * 2000 + p.val) :
    (iblk6 V c 2 t : Vec Ideal S2000x1 .f32) (ix2 p (0 : Fin 1)) = (V c main_v28 : S50000x1.Idx → EReal) (ix2 r (0 : Fin 1)) := by
  have e := idx_facts t
  unfold iblk6
  rw [View.read_apply]
  show V c main_v28 _ = V c main_v28 _
  refine congrArg (V c main_v28) ?_
  funext a; apply Fin.ext
  match a with
  | ⟨0, _⟩ => show win6_2.index t (0 : Fin 2) * 2000 + 1 * p.val = r.val; rw [e.2.2.2.2.1, hr]; omega
  | ⟨1, _⟩ => show win6_2.index t (1 : Fin 2) * 1 + 1 * 0 = 0; rw [e.2.2.2.2.2.1]

/-- The bias block at every point is the whole bias vector. -/
theorem read_b (c : Dev nD) (t : Fin cfg6.N) (q : Fin 128) :
    (iblk6 V c 3 t : Vec Ideal S128 .f32) (ix1 q) = (V c main_arg7 : S128.Idx → EReal) (ix1 q) := by
  have e := idx_facts t
  unfold iblk6
  rw [View.read_apply]
  show V c main_arg7 _ = V c main_arg7 _
  refine congrArg (V c main_arg7) ?_
  funext a; apply Fin.ext
  match a with
  | ⟨0, _⟩ => show win6_3.index t (0 : Fin 1) * 128 + 1 * q.val = q.val; rw [e.2.2.2.2.2.2.1]; omega

/-- What point t writes back is its block of the epilogue of the arrays as the call finds them. -/
theorem flushed_eq (c : Dev nD) (t : Fin cfg6.N) :
    (dat6 V c).flushed 4 t = ((cfg6.win 4).blk t).view.read (Elt Ideal) (Spec.combine (V c main_v74) (V c main_v61) (V c main_v28) (V c main_arg7)) := by
  show (cfg6.win 4).cut (grid6.coords t) ((dat6 V c).after 4 t) = _
  rw [after6_4, out_eq]
  funext y
  obtain ⟨p, q, rfl⟩ : ∃ (p : Fin 2000) (q : Fin 128), y = ix2 p q := ⟨y 0, y 1, eq_ix2 y⟩
  have hN : cfg6.N = 25 := N_6
  have ht := t.isLt
  have hp := p.isLt
  have e := idx_facts t
  have hemb : ((cfg6.win 4).blk t).view.emb (ix2 p q) = ix2 (⟨t.val * 2000 + p.val, by omega⟩ : Fin 50000) q := by
    funext a; apply Fin.ext
    match a with
    | ⟨0, _⟩ => show win6_4.index t (0 : Fin 2) * 2000 + 1 * p.val = t.val * 2000 + p.val; rw [e.2.2.2.2.2.2.2.1]; omega
    | ⟨1, _⟩ => show win6_4.index t (1 : Fin 2) * 128 + 1 * q.val = q.val; rw [e.2.2.2.2.2.2.2.2]; omega
  show k6_pay1 (iblk6 V c 1 t) (iblk6 V c 0 t) (iblk6 V c 2 t) (iblk6 V c 3 t) (ix2 p q)
    = (Spec.combine (V c main_v74) (V c main_v61) (V c main_v28) (V c main_arg7)) (((cfg6.win 4).blk t).view.emb (ix2 p q))
  rw [hemb]
  refine (pay_apply (iblk6 V c 1 t) (iblk6 V c 0 t) (iblk6 V c 2 t) (iblk6 V c 3 t) p q).trans ?_
  show Rows.combineAt _ _ _ _ _ p q = Rows.combineAt _ _ _ _ _ (⟨t.val * 2000 + p.val, by omega⟩ : Fin 50000) q
  unfold Rows.combineAt
  rw [read_a V c t p q ⟨t.val * 2000 + p.val, by omega⟩ rfl, read_h V c t p q ⟨t.val * 2000 + p.val, by omega⟩ rfl,
    read_d V c t p ⟨t.val * 2000 + p.val, by omega⟩ rfl, read_b V c t q]

/-- Every row of the result lies in the block of the point that is its quotient by 2000. -/
theorem cover (i : S50000x128.Idx) : ∃ t : Fin cfg6.N, (cfg6.win 4).flush t = true ∧ i ∈ ((cfg6.win 4).blk t).view.set := by
  have hN : cfg6.N = 25 := N_6
  have hi0 : (i 0).val < 50000 := (i 0).isLt
  have hi1 : (i 1).val < 128 := (i 1).isLt
  let t : Fin cfg6.N := ⟨(i 0).val / 2000, by omega⟩
  have e := idx_facts t
  refine ⟨t, flush6_4 t, ?_⟩
  show i ∈ ((View.whole main_v75).slice (win6_4.rect t)).set
  rw [View.set_slice_whole, Rect.mem_set_unit]
  intro a
  match a with
  | ⟨0, _⟩ =>
    show win6_4.index t (0 : Fin 2) * 2000 ≤ (i 0).val ∧ (i 0).val < win6_4.index t (0 : Fin 2) * 2000 + 2000
    rw [e.2.2.2.2.2.2.2.1]; show (i 0).val / 2000 * 2000 ≤ (i 0).val ∧ (i 0).val < (i 0).val / 2000 * 2000 + 2000; omega
  | ⟨1, _⟩ =>
    show win6_4.index t (1 : Fin 2) * 128 ≤ (i 1).val ∧ (i 1).val < win6_4.index t (1 : Fin 2) * 128 + 128
    rw [e.2.2.2.2.2.2.2.2]; omega

/-- After the call the result array is the epilogue of the arrays as the call found them. -/
theorem value (c : Dev nD) : (dat6 V c).arrAt 4 cfg6.N = Spec.combine (V c main_v74) (V c main_v61) (V c main_v28) (V c main_arg7) :=
  (dat6 V c).arrAt_eq_of_cover 4 _ (fun t _ => flushed_eq V c t) cover

end Cert.KernelIdeal.Reg6

end
-- ==== Proof.Reg7.lean ====
/-
  Pallas call 7: a dense layer, 2000 rows at a time.

  Grid point t reads rows 2000·t … 2000·t + 1999 of the node features, all of the weights and the whole bias vector,
  and writes rows 2000·t … 2000·t + 1999 of the result.  Entry (p, q) of the block it writes is
  Σ_k X(2000·t + p, k) · W(k, q) + b(q): the entry (2000·t + p, q) of the dense layer of the whole arrays.  The 25
  blocks tile the 50000 rows, so after the call the result array is that dense layer.  Stated for any contents of the
  buffers at the call's entry.
-/
import proofs.«100985_j73658689126419_1_alg».proof.Proof.Gen.KernelIdeal.Frame
import proofs.«100985_j73658689126419_1_alg».proof.Proof.Spec
import Idealize.ShloMosaic.Lib.Pipeline.Value

noncomputable section

open scoped BigOperators

namespace Cert.KernelIdeal.Reg7

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block the body leaves is its one store's payload of the three blocks it loaded. -/
theorem out_eq (x0 : Vec Ideal S2000x128 .f32) (x1 : Vec Ideal S128x64 .f32) (x2 : Vec Ideal S64 .f32) :
    out7_3 x0 x1 x2 = k7_pay1 x0 x1 x2 := by
  unfold out7_3
  rw [View.canon_unit_zero hz2]
  simp only [View.ld_unit_zero (S := S2000x128) hz2, View.ld_unit_zero (S := S128x64) hz2, View.ld_unit_zero (S := S64) hz1]

/-- The payload at (p, q): the dense layer's entry of the loaded blocks (the format changes are the identity). -/
theorem pay_apply (x0 : Vec Ideal S2000x128 .f32) (x1 : Vec Ideal S128x64 .f32) (x2 : Vec Ideal S64 .f32)
    (p : Fin 2000) (q : Fin 64) : k7_pay1 x0 x1 x2 (ix2 p q) = Rows.denseAt x0 x1 x2 p q := by
  unfold k7_pay1
  simp only [shapeCast_self]
  exact Rows.dense_block_apply none (truncf .bf16 x0 bitsLt_bf16_f32) (truncf .bf16 x1 bitsLt_bf16_f32) x2
    shapeCasts_S64_S1x64 broadcasts_S1x64_S2000x64 p q

/-- The printed index maps over the grid: the row blocks move with the point, the weights and the bias stay. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0 ∧ win7_2.index t (0 : Fin 1) = 0
    ∧ win7_3.index t (0 : Fin 2) = t.val ∧ win7_3.index t (1 : Fin 2) = 0 :=
  (by decide +kernel : ∀ t : Fin grid7.N, _)

/-- Row p of the feature block at point t is row 2000·t + p of the feature array. -/
theorem read_x (c : Dev nD) (t : Fin cfg7.N) (p : Fin 2000) (j : Fin 128) (r : Fin 50000) (hr : r.val = t.val * 2000 + p.val) :
    (iblk7 V c 0 t : Vec Ideal S2000x128 .f32) (ix2 p j) = (V c main_v75 : S50000x128.Idx → EReal) (ix2 r j) := by
  obtain ⟨e0, e1, -⟩ := idx_facts t
  unfold iblk7
  rw [View.read_apply]
  show V c main_v75 _ = V c main_v75 _
  refine congrArg (V c main_v75) ?_
  funext a; apply Fin.ext
  match a with
  | ⟨0, _⟩ => show win7_0.index t (0 : Fin 2) * 2000 + 1 * p.val = r.val; rw [e0, hr]; omega
  | ⟨1, _⟩ => show win7_0.index t (1 : Fin 2) * 128 + 1 * j.val = j.val; rw [e1]; omega

/-- The weight block at every point is the whole weight array. -/
theorem read_w (c : Dev nD) (t : Fin cfg7.N) (j : Fin 128) (q : Fin 64) :
    (iblk7 V c 1 t : Vec Ideal S128x64 .f32) (ix2 j q) = (V c main_arg10 : S128x64.Idx → EReal) (ix2 j q) := by
  obtain ⟨-, -, e2, e3, -⟩ := idx_facts t
  unfold iblk7
  rw [View.read_apply]
  show V c main_arg10 _ = V c main_arg10 _
  refine congrArg (V c main_arg10) ?_
  funext a; apply Fin.ext
  match a with
  | ⟨0, _⟩ => show win7_1.index t (0 : Fin 2) * 128 + 1 * j.val = j.val; rw [e2]; omega
  | ⟨1, _⟩ => show win7_1.index t (1 : Fin 2) * 64 + 1 * q.val = q.val; rw [e3]; omega

/-- The bias block at every point is the whole bias vector. -/
theorem read_b (c : Dev nD) (t : Fin cfg7.N) (q : Fin 64) :
    (iblk7 V c 2 t : Vec Ideal S64 .f32) (ix1 q) = (V c main_arg11 : S64.Idx → EReal) (ix1 q) := by
  obtain ⟨-, -, -, -, e4, -⟩ := idx_facts t
  unfold iblk7
  rw [View.read_apply]
  show V c main_arg11 _ = V c main_arg11 _
  refine congrArg (V c main_arg11) ?_
  funext a; apply Fin.ext
  match a with
  | ⟨0, _⟩ => show win7_2.index t (0 : Fin 1) * 64 + 1 * q.val = q.val; rw [e4]; omega

/-- What point t writes back is its block of the dense layer of the arrays as the call finds them. -/
theorem flushed_eq (c : Dev nD) (t : Fin cfg7.N) :
    (dat7 V c).flushed 3 t
      = ((cfg7.win 3).blk t).view.read (Elt Ideal) (Spec.dense (V c main_v75) (V c main_arg10) (V c main_arg11)) := by
  show (cfg7.win 3).cut (grid7.coords t) ((dat7 V c).after 3 t) = _
  rw [after7_3, out_eq]
  funext y
  obtain ⟨p, q, rfl⟩ : ∃ (p : Fin 2000) (q : Fin 64), y = ix2 p q := ⟨y 0, y 1, eq_ix2 y⟩
  have hN : cfg7.N = 25 := N_7
  have ht := t.isLt
  have hp := p.isLt
  obtain ⟨-, -, -, -, -, e5, e6⟩ := idx_facts t
  have hemb : ((cfg7.win 3).blk t).view.emb (ix2 p q) = ix2 (⟨t.val * 2000 + p.val, by omega⟩ : Fin 50000) q := by
    funext a; apply Fin.ext
    match a with
    | ⟨0, _⟩ => show win7_3.index t (0 : Fin 2) * 2000 + 1 * p.val = t.val * 2000 + p.val; rw [e5]; omega
    | ⟨1, _⟩ => show win7_3.index t (1 : Fin 2) * 64 + 1 * q.val = q.val; rw [e6]; omega
  show k7_pay1 (iblk7 V c 0 t) (iblk7 V c 1 t) (iblk7 V c 2 t) (ix2 p q)
    = Spec.dense (V c main_v75) (V c main_arg10) (V c main_arg11) (((cfg7.win 3).blk t).view.emb (ix2 p q))
  rw [hemb]
  refine (pay_apply (iblk7 V c 0 t) (iblk7 V c 1 t) (iblk7 V c 2 t) p q).trans ?_
  show Rows.denseAt _ _ _ p q = Rows.denseAt _ _ _ (⟨t.val * 2000 + p.val, by omega⟩ : Fin 50000) q
  unfold Rows.denseAt
  refine congr (congrArg HAdd.hAdd (Finset.sum_congr rfl fun j _ => ?_)) (read_b V c t q)
  exact congr (congrArg HMul.hMul (read_x V c t p j ⟨t.val * 2000 + p.val, by omega⟩ rfl)) (read_w V c t j q)

/-- Every row of the result lies in the block of the point that is its quotient by 2000. -/
theorem cover (i : S50000x64.Idx) : ∃ t : Fin cfg7.N, (cfg7.win 3).flush t = true ∧ i ∈ ((cfg7.win 3).blk t).view.set := by
  have hN : cfg7.N = 25 := N_7
  have hi0 : (i 0).val < 50000 := (i 0).isLt
  have hi1 : (i 1).val < 64 := (i 1).isLt
  let t : Fin cfg7.N := ⟨(i 0).val / 2000, by omega⟩
  obtain ⟨-, -, -, -, -, e5, e6⟩ := idx_facts t
  refine ⟨t, flush7_3 t, ?_⟩
  show i ∈ ((View.whole main_v76).slice (win7_3.rect t)).set
  rw [View.set_slice_whole, Rect.mem_set_unit]
  intro a
  match a with
  | ⟨0, _⟩ =>
    show win7_3.index t (0 : Fin 2) * 2000 ≤ (i 0).val ∧ (i 0).val < win7_3.index t (0 : Fin 2) * 2000 + 2000
    rw [e5]; show (i 0).val / 2000 * 2000 ≤ (i 0).val ∧ (i 0).val < (i 0).val / 2000 * 2000 + 2000; omega
  | ⟨1, _⟩ =>
    show win7_3.index t (1 : Fin 2) * 64 ≤ (i 1).val ∧ (i 1).val < win7_3.index t (1 : Fin 2) * 64 + 64
    rw [e6]; omega

/-- After the call the result array is the dense layer of the arrays as the call found them. -/
theorem value (c : Dev nD) :
    (dat7 V c).arrAt 3 cfg7.N = Spec.dense (V c main_v75) (V c main_arg10) (V c main_arg11) :=
  (dat7 V c).arrAt_eq_of_cover 3 _ (fun t _ => flushed_eq V c t) cover

end Cert.KernelIdeal.Reg7

end
-- ==== Proof.RefStages.lean ====
/-
  The reference's stages as dense layers, epilogues and edge aggregations.

  The reference computes, three times, a product of the node features with a weight matrix, an aggregation of that
  product over the edges (gather the source rows, scale each by its edge's coefficient, add into the target rows), and
  an epilogue max ((aggregate + product · 1/degree) + bias [+ residual], 0); before them a residual dense layer and
  after them a dense output layer.  Each of those stages is identified here with the whole-array function that names
  it: the products, dense layers and epilogues entry by entry, the aggregation as one fixed composition `agg` of host
  operations applied to the product, the two index rows and the edge coefficients.  The aggregation is never opened:
  both programs apply the same composition to equal operands.
-/
import proofs.«100985_j73658689126419_1_alg».proof.Proof.Gen.ReferenceIdeal.Read
import proofs.«100985_j73658689126419_1_alg».proof.Proof.Spec

noncomputable section

namespace Cert.ReferenceIdeal.Stages

open Cert.ReferenceIdeal Cert.ReferenceIdeal.Gen Cert.ReferenceIdeal.Read Idealize.ShloMosaic Idealize.ShloMosaic.ValueIdx

/-- The edge aggregation as the host computes it: gather the rows `h[src]` (a negative index counted from the end),
    scale row e by `ne e`, add the rows into the zero array at their targets `dst`. -/
def agg (h : (⟨S50000x128, .f32⟩ : BufTy).Contents (Elt Ideal)) (src dst : (⟨S640000, .i32⟩ : BufTy).Contents (Elt Ideal)) (ne : (⟨S640000, .f32⟩ : BufTy).Contents (Elt Ideal)) :
    (⟨S50000x128, .f32⟩ : BufTy).Contents (Elt Ideal) :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0 dst)
    (mulf (Host.gather gather_S50000x128_S640000x1_S640000x128_1_0_n_n_0_1_1128 h
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src)))
      (broadcastInDim S640000x128 ![0, 1] bcast_S640000x1_S640000x128_0_1
        (broadcastInDim S640000x1 ![0] bcast_S640000_S640000x1_0 ne)))

/-- The residual dense layer. -/
theorem v31_eq (x0 : (⟨S50000x128, .f32⟩ : BufTy).Contents (Elt Ideal)) (x8 : (⟨S128x128, .f32⟩ : BufTy).Contents (Elt Ideal)) (x9 : (⟨S128, .f32⟩ : BufTy).Contents (Elt Ideal)) :
    val_main_v31 (F := Ideal) x0 x8 x9 = Spec.dense x0 x8 x9 := by
  funext i
  obtain ⟨r, q, rfl⟩ : ∃ (r : Fin 50000) (q : Fin 128), i = ix2 r q := ⟨i 0, i 1, eq_ix2 i⟩
  unfold val_main_v31 val_main_v28 val_main_v30 val_main_v29
  exact Rows.dense_host_apply x0 x8 x9 bcast_S128_S1x128_1 bcast_S1x128_S50000x128_0_1 r q

/-- The first product. -/
theorem v32_eq (x0 : (⟨S50000x128, .f32⟩ : BufTy).Contents (Elt Ideal)) (x2 : (⟨S128x128, .f32⟩ : BufTy).Contents (Elt Ideal)) :
    val_main_v32 (F := Ideal) x0 x2 = Spec.prod x0 x2 := by
  funext i
  obtain ⟨r, q, rfl⟩ : ∃ (r : Fin 50000) (q : Fin 128), i = ix2 r q := ⟨i 0, i 1, eq_ix2 i⟩
  unfold val_main_v32
  exact Rows.prod_host_apply x0 x2 r q

/-- The first aggregation. -/
theorem v45_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) :
    val_main_v45 (F := Ideal) x0 x1 x2
      = agg (val_main_v32 x0 x2) (val_main_v1 x1) (val_main_v3 x1) (val_main_v25 x1) := rfl

/-- The first epilogue, with the residual. -/
theorem v54_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x8 : (⟨S128x128, .f32⟩ : BufTy).Contents (Elt Ideal)) (x9 : (⟨S128, .f32⟩ : BufTy).Contents (Elt Ideal)) :
    val_main_v54 (F := Ideal) x0 x1 x2 x3 x8 x9
      = Spec.combineRes (val_main_v45 x0 x1 x2) (val_main_v32 x0 x2) (val_main_v46 x1) x3 (val_main_v31 x0 x8 x9) := by
  funext i
  obtain ⟨r, q, rfl⟩ : ∃ (r : Fin 50000) (q : Fin 128), i = ix2 r q := ⟨i 0, i 1, eq_ix2 i⟩
  unfold val_main_v54 val_main_v53 val_main_v52 val_main_v49 val_main_v48 val_main_v47 val_main_v51 val_main_v50
    val_main_call0_v0 val_main_call0_cst
  exact Rows.combineRes_host_apply (val_main_v45 x0 x1 x2) (val_main_v32 x0 x2) (val_main_v31 x0 x8 x9) (val_main_v46 x1) x3
    bcast_S50000x1_S50000x128_0_1 bcast_S128_S1x128_1 bcast_S1x128_S50000x128_0_1 bcast_S_S50000x128 0x00000000#32 r q

/-- The second product. -/
theorem v55_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x8 : (⟨S128x128, .f32⟩ : BufTy).Contents (Elt Ideal)) (x9 : (⟨S128, .f32⟩ : BufTy).Contents (Elt Ideal)) :
    val_main_v55 (F := Ideal) x0 x1 x2 x3 x4 x8 x9 = Spec.prod (val_main_v54 x0 x1 x2 x3 x8 x9) x4 := by
  funext i
  obtain ⟨r, q, rfl⟩ : ∃ (r : Fin 50000) (q : Fin 128), i = ix2 r q := ⟨i 0, i 1, eq_ix2 i⟩
  unfold val_main_v55
  exact Rows.prod_host_apply (val_main_v54 x0 x1 x2 x3 x8 x9) x4 r q

/-- The second aggregation. -/
theorem v68_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x8 : (⟨S128x128, .f32⟩ : BufTy).Contents (Elt Ideal)) (x9 : (⟨S128, .f32⟩ : BufTy).Contents (Elt Ideal)) :
    val_main_v68 (F := Ideal) x0 x1 x2 x3 x4 x8 x9
      = agg (val_main_v55 x0 x1 x2 x3 x4 x8 x9) (val_main_v1 x1) (val_main_v3 x1) (val_main_v25 x1) := rfl

/-- The second epilogue. -/
theorem v76_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x8 : (⟨S128x128, .f32⟩ : BufTy).Contents (Elt Ideal)) (x9 : (⟨S128, .f32⟩ : BufTy).Contents (Elt Ideal)) :
    val_main_v76 (F := Ideal) x0 x1 x2 x3 x4 x5 x8 x9
      = Spec.combine (val_main_v68 x0 x1 x2 x3 x4 x8 x9) (val_main_v55 x0 x1 x2 x3 x4 x8 x9) (val_main_v46 x1) x5 := by
  funext i
  obtain ⟨r, q, rfl⟩ : ∃ (r : Fin 50000) (q : Fin 128), i = ix2 r q := ⟨i 0, i 1, eq_ix2 i⟩
  unfold val_main_v76 val_main_v75 val_main_v72 val_main_v71 val_main_v70 val_main_v74 val_main_v73
    val_main_call1_v0 val_main_call1_cst
  exact Rows.combine_host_apply (val_main_v68 x0 x1 x2 x3 x4 x8 x9) (val_main_v55 x0 x1 x2 x3 x4 x8 x9) (val_main_v46 x1) x5
    bcast_S50000x1_S50000x128_0_1 bcast_S128_S1x128_1 bcast_S1x128_S50000x128_0_1 bcast_S_S50000x128 0x00000000#32 r q

/-- The third product. -/
theorem v77_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x8 : (⟨S128x128, .f32⟩ : BufTy).Contents (Elt Ideal)) (x9 : (⟨S128, .f32⟩ : BufTy).Contents (Elt Ideal)) :
    val_main_v77 (F := Ideal) x0 x1 x2 x3 x4 x5 x6 x8 x9 = Spec.prod (val_main_v76 x0 x1 x2 x3 x4 x5 x8 x9) x6 := by
  funext i
  obtain ⟨r, q, rfl⟩ : ∃ (r : Fin 50000) (q : Fin 128), i = ix2 r q := ⟨i 0, i 1, eq_ix2 i⟩
  unfold val_main_v77
  exact Rows.prod_host_apply (val_main_v76 x0 x1 x2 x3 x4 x5 x8 x9) x6 r q

/-- The third aggregation. -/
theorem v90_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x8 : (⟨S128x128, .f32⟩ : BufTy).Contents (Elt Ideal)) (x9 : (⟨S128, .f32⟩ : BufTy).Contents (Elt Ideal)) :
    val_main_v90 (F := Ideal) x0 x1 x2 x3 x4 x5 x6 x8 x9
      = agg (val_main_v77 x0 x1 x2 x3 x4 x5 x6 x8 x9) (val_main_v1 x1) (val_main_v3 x1) (val_main_v25 x1) := rfl

/-- The third epilogue. -/
theorem v98_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v98 (F := Ideal) x0 x1 x2 x3 x4 x5 x6 x7 x8 x9
      = Spec.combine (val_main_v90 x0 x1 x2 x3 x4 x5 x6 x8 x9) (val_main_v77 x0 x1 x2 x3 x4 x5 x6 x8 x9) (val_main_v46 x1) x7 := by
  funext i
  obtain ⟨r, q, rfl⟩ : ∃ (r : Fin 50000) (q : Fin 128), i = ix2 r q := ⟨i 0, i 1, eq_ix2 i⟩
  unfold val_main_v98 val_main_v97 val_main_v94 val_main_v93 val_main_v92 val_main_v96 val_main_v95
    val_main_call2_v0 val_main_call2_cst
  exact Rows.combine_host_apply (val_main_v90 x0 x1 x2 x3 x4 x5 x6 x8 x9) (val_main_v77 x0 x1 x2 x3 x4 x5 x6 x8 x9) (val_main_v46 x1) x7
    bcast_S50000x1_S50000x128_0_1 bcast_S128_S1x128_1 bcast_S1x128_S50000x128_0_1 bcast_S_S50000x128 0x00000000#32 r q

/-- The output dense layer. -/
theorem v102_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) :
    val_main_v102 (F := Ideal) x0 x1 x2 x3 x4 x5 x6 x7 x8 x9 x10 x11 = Spec.dense (val_main_v98 x0 x1 x2 x3 x4 x5 x6 x7 x8 x9) x10 x11 := by
  funext i
  obtain ⟨r, q, rfl⟩ : ∃ (r : Fin 50000) (q : Fin 64), i = ix2 r q := ⟨i 0, i 1, eq_ix2 i⟩
  unfold val_main_v102 val_main_v99 val_main_v101 val_main_v100
  exact Rows.dense_host_apply (val_main_v98 x0 x1 x2 x3 x4 x5 x6 x7 x8 x9) x10 x11 bcast_S64_S1x64_1 bcast_S1x64_S50000x64_0_1 r q

end Cert.ReferenceIdeal.Stages

end
-- ==== Proof.Leaves.lean ====
/-
  What each segment of the kernel's program produces.

  The first stretch of host operations leaves the two rows of the edge list, the edge coefficients, the column
  1/degree — each the reference's value of the same name, as a function of the edge-list argument — and a vector of
  zeros.  A Pallas call's result array is the dense layer or the epilogue of the arrays it read, as they stood at
  the call's entry (the modules of the eight calls).  Each later host stretch leaves the edge aggregation of the
  buffers it read, as they stood at the stretch's entry.  The two programs print their own copies of the gathers' and
  scatters' dimension numbers; the copies are equal, which is all that is said about a gather or a scatter here.
-/
import proofs.«100985_j73658689126419_1_alg».proof.Proof.Carry
import proofs.«100985_j73658689126419_1_alg».proof.Proof.Reg0
import proofs.«100985_j73658689126419_1_alg».proof.Proof.Reg1
import proofs.«100985_j73658689126419_1_alg».proof.Proof.Reg2
import proofs.«100985_j73658689126419_1_alg».proof.Proof.Reg3
import proofs.«100985_j73658689126419_1_alg».proof.Proof.Reg4
import proofs.«100985_j73658689126419_1_alg».proof.Proof.Reg5
import proofs.«100985_j73658689126419_1_alg».proof.Proof.Reg6
import proofs.«100985_j73658689126419_1_alg».proof.Proof.Reg7
import proofs.«100985_j73658689126419_1_alg».proof.Proof.RefStages
import Idealize.ShloMosaic.Lib.StableHlo.Run

noncomputable section

namespace Cert.KernelIdeal.Fold

open Cert.KernelIdeal Cert.KernelIdeal.Gen Idealize.ShloMosaic Idealize.ShloMosaic.TcCoe Idealize.ShloMosaic.ValueIdx Idealize.SL.Sem
open Idealize.ShloMosaic.StableHlo
open Cert.ReferenceIdeal.Read Cert.ReferenceIdeal.Stages

variable (m : (ℓ : Loc nD τ sig) → Buf (Elt Ideal) ℓ) (ρ : Dev nD → PrngReg) (c : Dev nD)

/-! ## The two programs' dimension numbers -/

theorem scatter2_eq : scatter_S50000x128_S640000x1_S640000x128_1_0_0_1
    = Cert.ReferenceIdeal.scatter_S50000x128_S640000x1_S640000x128_1_0_0_1 := rfl
theorem gather2_eq : gather_S50000x128_S640000x1_S640000x128_1_0_n_n_0_1_1128
    = Cert.ReferenceIdeal.gather_S50000x128_S640000x1_S640000x128_1_0_n_n_0_1_1128 := rfl
theorem scatter1_eq : scatter_S50000_S640000x1_S640000_n_0_0_1
    = Cert.ReferenceIdeal.scatter_S50000_S640000x1_S640000_n_0_0_1 := rfl
theorem gather1_eq : gather_S50000_S640000x1_S640000_n_0_n_n_0_1_1
    = Cert.ReferenceIdeal.gather_S50000_S640000x1_S640000_n_0_n_n_0_1_1 := rfl

/-! ## What the first host stretch leaves -/

/-- The source row of the edge list. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl

/-- The target row of the edge list. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

set_option maxHeartbeats 400000 in
/-- The edge coefficients rsqrt(deg[src]) · rsqrt(deg[dst]). -/
theorem W1_v25 : W1 m ρ c (Proc.devRef .tc main_v25) = val_main_v25 (F := Ideal) (m ((c : Thread nD τ).loc main_arg1)) := by
  show StableHlo.after hostOps0 (W0 m ρ c) (Proc.devRef .tc main_v25) = _
  after_results_simp
  simp only [val_main_v25, val_main_v17, val_main_v16, val_main_v15, val_main_v12, val_main_v11, val_main_c, val_main_v14, val_main_v13, val_main_c_2, val_main_v10, val_main_v9, val_main_v7, val_main_v5, val_main_cst_0, val_main_v6, val_main_v4, val_main_cst, val_main_v8, val_main_cst_1, val_main_v24, val_main_v23, val_main_v22, val_main_v19, val_main_v18, val_main_c_3, val_main_v21, val_main_v20, val_main_c_4, val_main_v1, val_main_v0, val_main_v3, val_main_v2]
  rw [scatter1_eq, gather1_eq]
  rfl

set_option maxHeartbeats 400000 in
/-- The column 1/degree. -/
theorem W1_v28 : W1 m ρ c (Proc.devRef .tc main_v28) = val_main_v46 (F := Ideal) (m ((c : Thread nD τ).loc main_arg1)) := by
  show StableHlo.after hostOps0 (W0 m ρ c) (Proc.devRef .tc main_v28) = _
  after_results_simp
  simp only [val_main_v46, val_main_v27, val_main_v26, val_main_cst_5, val_main_v9, val_main_v7, val_main_v5, val_main_cst_0, val_main_v6, val_main_v4, val_main_cst, val_main_v8, val_main_cst_1, val_main_v3, val_main_v2]
  rw [scatter1_eq]
  rfl

/-- The bias of the three products is zero everywhere. -/
theorem W1_v29_apply (q : Fin 128) : (W1 m ρ c (Proc.devRef .tc main_v29) : S128.Idx → EReal) (ix1 q) = (0 : EReal) := by
  have e : (W1 m ρ c (Proc.devRef .tc main_v29) : S128.Idx → EReal)
      = broadcastInDim S128 ![] bcast_S_S128 (constant (F := Ideal) S_ .f32 0x00000000#32) := by
    show StableHlo.after hostOps0 (W0 m ρ c) (Proc.devRef .tc main_v29) = _
    after_results_simp
  rw [e]
  refine (RowSpread.scalarInDim_apply _ _ _).trans ?_
  rw [constant_apply, Ideal.ofBits_zero_f32]

/-! ## What the Pallas calls leave -/

theorem W2_out : W2 m ρ c (Proc.devRef .tc main_v30)
    = Spec.dense (K := 128) (N := 128) (W1 m ρ c (Proc.devRef .tc main_arg0)) (W1 m ρ c (Proc.devRef .tc main_arg8)) (W1 m ρ c (Proc.devRef .tc main_arg9)) :=
  (W2_arr m ρ c 3).trans (Reg0.value (V1 m ρ) c)
theorem W3_out : W3 m ρ c (Proc.devRef .tc main_v31)
    = Spec.dense (K := 128) (N := 128) (W2 m ρ c (Proc.devRef .tc main_arg0)) (W2 m ρ c (Proc.devRef .tc main_arg2)) (W2 m ρ c (Proc.devRef .tc main_v29)) :=
  (W3_arr m ρ c 3).trans (Reg1.value (V2 m ρ) c)
theorem W5_out : W5 m ρ c (Proc.devRef .tc main_v45)
    = Spec.combineRes (N := 128) (W4 m ρ c (Proc.devRef .tc main_v44)) (W4 m ρ c (Proc.devRef .tc main_v31)) (W4 m ρ c (Proc.devRef .tc main_v28)) (W4 m ρ c (Proc.devRef .tc main_arg3)) (W4 m ρ c (Proc.devRef .tc main_v30)) :=
  (W5_arr m ρ c 5).trans (Reg2.value (V4 m ρ) c)
theorem W6_out : W6 m ρ c (Proc.devRef .tc main_v46)
    = Spec.dense (K := 128) (N := 128) (W5 m ρ c (Proc.devRef .tc main_v45)) (W5 m ρ c (Proc.devRef .tc main_arg4)) (W5 m ρ c (Proc.devRef .tc main_v29)) :=
  (W6_arr m ρ c 3).trans (Reg3.value (V5 m ρ) c)
theorem W8_out : W8 m ρ c (Proc.devRef .tc main_v60)
    = Spec.combine (N := 128) (W7 m ρ c (Proc.devRef .tc main_v59)) (W7 m ρ c (Proc.devRef .tc main_v46)) (W7 m ρ c (Proc.devRef .tc main_v28)) (W7 m ρ c (Proc.devRef .tc main_arg5)) :=
  (W8_arr m ρ c 4).trans (Reg4.value (V7 m ρ) c)
theorem W9_out : W9 m ρ c (Proc.devRef .tc main_v61)
    = Spec.dense (K := 128) (N := 128) (W8 m ρ c (Proc.devRef .tc main_v60)) (W8 m ρ c (Proc.devRef .tc main_arg6)) (W8 m ρ c (Proc.devRef .tc main_v29)) :=
  (W9_arr m ρ c 3).trans (Reg5.value (V8 m ρ) c)
theorem W11_out : W11 m ρ c (Proc.devRef .tc main_v75)
    = Spec.combine (N := 128) (W10 m ρ c (Proc.devRef .tc main_v74)) (W10 m ρ c (Proc.devRef .tc main_v61)) (W10 m ρ c (Proc.devRef .tc main_v28)) (W10 m ρ c (Proc.devRef .tc main_arg7)) :=
  (W11_arr m ρ c 4).trans (Reg6.value (V10 m ρ) c)
theorem W12_out : W12 m ρ c (Proc.devRef .tc main_v76)
    = Spec.dense (K := 128) (N := 64) (W11 m ρ c (Proc.devRef .tc main_v75)) (W11 m ρ c (Proc.devRef .tc main_arg10)) (W11 m ρ c (Proc.devRef .tc main_arg11)) :=
  (W12_arr m ρ c 3).trans (Reg7.value (V11 m ρ) c)

/-! ## What the later host stretches leave: the edge aggregation of what they read -/

set_option maxHeartbeats 1600000 in
/-- Host stretch 2, from any contents `V`: it leaves in its last result the aggregation of what it read. -/
theorem host2_agg (V : Valuation τ sig (Elt Ideal)) : StableHlo.after hostOps2 V (Proc.devRef .tc main_v44)
    = agg (V (Proc.devRef .tc main_v31)) (V (Proc.devRef .tc main_v1)) (V (Proc.devRef .tc main_v3)) (V (Proc.devRef .tc main_v25)) := by
  after_results_simp
  rw [scatter2_eq, gather2_eq]
  rfl
theorem W4_agg : W4 m ρ c (Proc.devRef .tc main_v44)
    = agg (W3 m ρ c (Proc.devRef .tc main_v31)) (W3 m ρ c (Proc.devRef .tc main_v1)) (W3 m ρ c (Proc.devRef .tc main_v3)) (W3 m ρ c (Proc.devRef .tc main_v25)) :=
  host2_agg (W3 m ρ c)

set_option maxHeartbeats 1600000 in
/-- Host stretch 4, from any contents `V`: it leaves in its last result the aggregation of what it read. -/
theorem host4_agg (V : Valuation τ sig (Elt Ideal)) : StableHlo.after hostOps4 V (Proc.devRef .tc main_v59)
    = agg (V (Proc.devRef .tc main_v46)) (V (Proc.devRef .tc main_v1)) (V (Proc.devRef .tc main_v3)) (V (Proc.devRef .tc main_v25)) := by
  after_results_simp
  rw [scatter2_eq, gather2_eq]
  rfl
theorem W7_agg : W7 m ρ c (Proc.devRef .tc main_v59)
    = agg (W6 m ρ c (Proc.devRef .tc main_v46)) (W6 m ρ c (Proc.devRef .tc main_v1)) (W6 m ρ c (Proc.devRef .tc main_v3)) (W6 m ρ c (Proc.devRef .tc main_v25)) :=
  host4_agg (W6 m ρ c)

set_option maxHeartbeats 1600000 in
/-- Host stretch 6, from any contents `V`: it leaves in its last result the aggregation of what it read. -/
theorem host6_agg (V : Valuation τ sig (Elt Ideal)) : StableHlo.after hostOps6 V (Proc.devRef .tc main_v74)
    = agg (V (Proc.devRef .tc main_v61)) (V (Proc.devRef .tc main_v1)) (V (Proc.devRef .tc main_v3)) (V (Proc.devRef .tc main_v25)) := by
  after_results_simp
  rw [scatter2_eq, gather2_eq]
  rfl
theorem W10_agg : W10 m ρ c (Proc.devRef .tc main_v74)
    = agg (W9 m ρ c (Proc.devRef .tc main_v61)) (W9 m ρ c (Proc.devRef .tc main_v1)) (W9 m ρ c (Proc.devRef .tc main_v3)) (W9 m ρ c (Proc.devRef .tc main_v25)) :=
  host6_agg (W9 m ρ c)

end Cert.KernelIdeal.Fold

end
-- ==== Proof.Chain.lean ====
/-
  The result buffer, boundary by boundary.

  At each boundary the buffer a segment has just produced equals the reference's stage of the same name, as a function
  of the launch contents of the twelve arguments.  The proof of each step reads the segment's product (Leaves), walks
  every operand back to the boundary where it was produced (Carry) — first replacing the operand produced at the
  current boundary by the stage already identified there, then carrying the others one boundary down, and so on —, and
  closes with the reference's own description of that stage (RefStages).  A dense layer whose bias is the vector of
  zeros is the plain product (x + 0 = x on every extended real); nothing else is used, and no input needs to be finite.
-/
import proofs.«100985_j73658689126419_1_alg».proof.Proof.Leaves

/-- Every read at boundary 12 of a buffer the segment before it leaves alone becomes the read one boundary earlier. -/
macro "k12" : tactic => `(tactic| repeat (rw [Cert.KernelIdeal.Fold.W12_keep]; rotate_left; decide))
/-- Every read at boundary 11 of a buffer the segment before it leaves alone becomes the read one boundary earlier. -/
macro "k11" : tactic => `(tactic| repeat (rw [Cert.KernelIdeal.Fold.W11_keep]; rotate_left; decide))
/-- Every read at boundary 10 of a buffer the segment before it leaves alone becomes the read one boundary earlier. -/
macro "k10" : tactic => `(tactic| repeat (rw [Cert.KernelIdeal.Fold.W10_keep]; rotate_left; decide))
/-- Every read at boundary 9 of a buffer the segment before it leaves alone becomes the read one boundary earlier. -/
macro "k9" : tactic => `(tactic| repeat (rw [Cert.KernelIdeal.Fold.W9_keep]; rotate_left; decide))
/-- Every read at boundary 8 of a buffer the segment before it leaves alone becomes the read one boundary earlier. -/
macro "k8" : tactic => `(tactic| repeat (rw [Cert.KernelIdeal.Fold.W8_keep]; rotate_left; decide))
/-- Every read at boundary 7 of a buffer the segment before it leaves alone becomes the read one boundary earlier. -/
macro "k7" : tactic => `(tactic| repeat (rw [Cert.KernelIdeal.Fold.W7_keep]; rotate_left; decide))
/-- Every read at boundary 6 of a buffer the segment before it leaves alone becomes the read one boundary earlier. -/
macro "k6" : tactic => `(tactic| repeat (rw [Cert.KernelIdeal.Fold.W6_keep]; rotate_left; decide))
/-- Every read at boundary 5 of a buffer the segment before it leaves alone becomes the read one boundary earlier. -/
macro "k5" : tactic => `(tactic| repeat (rw [Cert.KernelIdeal.Fold.W5_keep]; rotate_left; decide))
/-- Every read at boundary 4 of a buffer the segment before it leaves alone becomes the read one boundary earlier. -/
macro "k4" : tactic => `(tactic| repeat (rw [Cert.KernelIdeal.Fold.W4_keep]; rotate_left; decide))
/-- Every read at boundary 3 of a buffer the segment before it leaves alone becomes the read one boundary earlier. -/
macro "k3" : tactic => `(tactic| repeat (rw [Cert.KernelIdeal.Fold.W3_keep]; rotate_left; decide))
/-- Every read at boundary 2 of a buffer the segment before it leaves alone becomes the read one boundary earlier. -/
macro "k2" : tactic => `(tactic| repeat (rw [Cert.KernelIdeal.Fold.W2_keep]; rotate_left; decide))
/-- Every read at boundary 1 of a buffer the segment before it leaves alone becomes the read one boundary earlier. -/
macro "k1" : tactic => `(tactic| repeat (rw [Cert.KernelIdeal.Fold.W1_keep]; rotate_left; decide))
/-- A read at the launch boundary is the launch memory's. -/
macro "k0" : tactic => `(tactic| repeat rw [Cert.KernelIdeal.Fold.W0_read])

noncomputable section

namespace Cert.KernelIdeal.Fold

open Cert.KernelIdeal Cert.KernelIdeal.Gen Idealize.ShloMosaic Idealize.ShloMosaic.TcCoe Idealize.ShloMosaic.ValueIdx Idealize.SL.Sem
open Cert.ReferenceIdeal.Read Cert.ReferenceIdeal.Stages

variable (m : (ℓ : Loc nD τ sig) → Buf (Elt Ideal) ℓ) (ρ : Dev nD → PrngReg) (c : Dev nD)

/-- The residual dense layer. -/
theorem t2 : W2 m ρ c (Proc.devRef .tc main_v30) = val_main_v31 (F := Ideal) (m ((c : Thread nD τ).loc main_arg0)) (m ((c : Thread nD τ).loc main_arg8)) (m ((c : Thread nD τ).loc main_arg9)) := by
  rw [W2_out]; k1; k0
  exact (v31_eq _ _ _).symm

/-- The first product: its bias is the vector of zeros. -/
theorem t3 : W3 m ρ c (Proc.devRef .tc main_v31) = val_main_v32 (F := Ideal) (m ((c : Thread nD τ).loc main_arg0)) (m ((c : Thread nD τ).loc main_arg2)) := by
  rw [W3_out]; k2; k1; k0
  rw [Spec.dense_zero _ _ _ (W1_v29_apply m ρ c)]
  exact (v32_eq _ _).symm

/-- The first aggregation. -/
theorem t4 : W4 m ρ c (Proc.devRef .tc main_v44) = val_main_v45 (F := Ideal) (m ((c : Thread nD τ).loc main_arg0)) (m ((c : Thread nD τ).loc main_arg1)) (m ((c : Thread nD τ).loc main_arg2)) := by
  rw [W4_agg, t3]; k3; k2
  rw [W1_v1, W1_v3, W1_v25]
  exact (v45_eq _ _ _).symm

/-- The first epilogue. -/
theorem t5 : W5 m ρ c (Proc.devRef .tc main_v45) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  rw [W5_out, t4]; k4
  rw [t3]; k3
  rw [t2]; k2
  rw [W1_v28]; k1; k0
  exact (v54_eq _ _ _ _ _ _).symm

/-- The second product. -/
theorem t6 : W6 m ρ c (Proc.devRef .tc main_v46) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  rw [W6_out, t5]; k5; k4; k3; k2; k1; k0
  rw [Spec.dense_zero _ _ _ (W1_v29_apply m ρ c)]
  exact (v55_eq _ _ _ _ _ _ _).symm

/-- The second aggregation. -/
theorem t7 : W7 m ρ c (Proc.devRef .tc main_v59) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  rw [W7_agg, t6]; k6; k5; k4; k3; k2
  rw [W1_v1, W1_v3, W1_v25]
  exact (v68_eq _ _ _ _ _ _ _).symm

/-- The second epilogue. -/
theorem t8 : W8 m ρ c (Proc.devRef .tc main_v60) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  rw [W8_out, t7]; k7
  rw [t6]; k6; k5; k4; k3; k2
  rw [W1_v28]; k1; k0
  exact (v76_eq _ _ _ _ _ _ _ _).symm

set_option maxHeartbeats 1600000 in
/-- The third product. -/
theorem t9 : W9 m ρ c (Proc.devRef .tc main_v61) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) := by
  rw [W9_out, t8]; k8; k7; k6; k5; k4; k3; k2; k1; k0
  rw [Spec.dense_zero _ _ _ (W1_v29_apply m ρ c)]
  exact (v77_eq _ _ _ _ _ _ _ _ _).symm

set_option maxHeartbeats 1600000 in
/-- The third aggregation. -/
theorem t10 : W10 m ρ c (Proc.devRef .tc main_v74) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) := by
  rw [W10_agg, t9]; k9; k8; k7; k6; k5; k4; k3; k2
  rw [W1_v1, W1_v3, W1_v25]
  exact (v90_eq _ _ _ _ _ _ _ _ _).symm

set_option maxHeartbeats 1600000 in
/-- The third epilogue. -/
theorem t11 : W11 m ρ c (Proc.devRef .tc main_v75) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W11_out, t10]; k10
  rw [t9]; k9; k8; k7; k6; k5; k4; k3; k2
  rw [W1_v28]; k1; k0
  exact (v98_eq _ _ _ _ _ _ _ _ _ _).symm

set_option maxHeartbeats 1600000 in
/-- The output dense layer: the program's result is the reference's. -/
theorem t12 : W12 m ρ c (Proc.devRef .tc main_v76) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W12_out, t11]; k11; k10; k9; k8; k7; k6; k5; k4; k3; k2; k1; k0
  exact (v102_eq _ _ _ _ _ _ _ _ _ _ _ _).symm

end Cert.KernelIdeal.Fold

end
-- ==== Proof.lean ====
/-
  A three-layer graph convolution network over 50000 nodes and 640000 edges: the Pallas program against its jnp
  reference, over the extended reals.

  Both programs compute, from the edge list, the degree of every node (edges into it, plus one), the edge
  coefficients rsqrt(deg[src]) · rsqrt(deg[dst]) and the column 1/deg; a residual dense layer x·Wres + bres; three
  times a product h = x·W, its aggregation over the edges (gather h[src], scale by the edge coefficient, add into the
  rows dst) and an epilogue max ((aggregate + h · 1/deg) + b [+ residual], 0); and an output dense layer.  The
  reference does all of it with host operations on whole arrays.  The kernel does the degrees, coefficients, gathers
  and scatter-adds with the same host operations, and the five dense layers and three epilogues as eight Pallas
  calls that each handle 2000 rows at a time: row r of a dense layer or of an epilogue depends on row r of its
  row-indexed operands only, so the 25 blocks of a call tile the whole-array result.  The only algebra between the
  two sides is x + 0 = x: the kernel adds a bias of zeros to each of the three products (true on every extended
  real, so no input needs to be finite); a change of float format is the identity over the extended reals, and a
  block product into a zero accumulator is the same sum as the whole product.

  The frames of the two kernel programs are the generated ones; the reference's frame is its generated run with the
  result dropped.  The idealization rewrote nothing, so it preserves the kernel trivially.  For the value claim the
  kernel's run ends with its result buffer at what the fold through its twelve segments leaves there (RunK), which is
  the reference's last stage as a function of the arguments (Chain, over Reg0 … Reg7, Carry and RefStages); the
  reference's run ends with its result at that same stage (the generated Run and Read modules).
-/
import proofs.«100985_j73658689126419_1_alg».proof.Defs
import proofs.«100985_j73658689126419_1_alg».proof.Proof.Gen.Kernel
import proofs.«100985_j73658689126419_1_alg».proof.Proof.Gen.Kernel.Frame
import proofs.«100985_j73658689126419_1_alg».proof.Proof.Gen.KernelIdeal
import proofs.«100985_j73658689126419_1_alg».proof.Proof.Gen.KernelIdeal.Frame
import proofs.«100985_j73658689126419_1_alg».proof.Proof.Gen.ReferenceIdeal
import proofs.«100985_j73658689126419_1_alg».proof.Proof.Gen.Pre_finite_inputs
import proofs.«100985_j73658689126419_1_alg».proof.Proof.Gen.ReferenceIdeal.Run
import proofs.«100985_j73658689126419_1_alg».proof.Proof.Gen.ReferenceIdeal.Read
import proofs.«100985_j73658689126419_1_alg».proof.Proof.RunK
import proofs.«100985_j73658689126419_1_alg».proof.Proof.Chain
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the twelve arguments both programs end with the same result array: the
    reference's last stage of the arguments. -/
theorem algebraic : Cert.algebraic_KernelIdeal_ReferenceIdeal := by
  intro m ρ m' ρ' _ hagree
  refine ⟨fun c => Cert.KernelIdeal.Gen.W12 m ρ c (Proc.devRef .tc Cert.KernelIdeal.main_v76),
    Cert.KernelIdeal.Fold.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v102_eq, e0, e1, e2, e3, e4, e5, e6, e7, e8, e9, e10, e11]
  exact (Cert.KernelIdeal.Fold.t12 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
